-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : IVec S1600000 32) (main_arg8 : IVec S1600000 32) (main_arg9 : IVec S1600000 32) (main_arg10 : IVec S1600000 32) (main_arg11 : IVec S1600000 32) (main_arg12 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S1x64 : Shape := ⟨2, ![1, 64]⟩
abbrev S10000x64 : Shape := ⟨2, ![10000, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 120
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S100000x64, .f32⟩
  | .hbm, ⟨17, _⟩ => ⟨S100000x64, .f32⟩
  | .hbm, ⟨18, _⟩ => ⟨S100000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S_, .f32⟩
  | .hbm, ⟨33, _⟩ => ⟨S1600000, .f32⟩
  | .hbm, ⟨34, _⟩ => ⟨S_, .f32⟩
  | .hbm, ⟨35, _⟩ => ⟨S100000, .f32⟩
  | .hbm, ⟨36, _⟩ => ⟨S1600000x1, .i32⟩
  | .hbm, ⟨37, _⟩ => ⟨S100000, .f32⟩
  | .hbm, ⟨38, _⟩ => ⟨S100000x1, .f32⟩
  | .hbm, ⟨39, _⟩ => ⟨S_, .f32⟩
  | .hbm, ⟨40, _⟩ => ⟨S100000x1, .f32⟩
  | .hbm, ⟨41, _⟩ => ⟨S100000x1, .i1⟩
  | .hbm, ⟨42, _⟩ => ⟨S_, .f32⟩
  | .hbm, ⟨43, _⟩ => ⟨S100000x1, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S_, .f32⟩
  | .hbm, ⟨49, _⟩ => ⟨S100000x64, .i1⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S100000x1, .f32⟩
  | .hbm, ⟨72, _⟩ => ⟨S_, .f32⟩
  | .hbm, ⟨73, _⟩ => ⟨S100000x1, .f32⟩
  | .hbm, ⟨74, _⟩ => ⟨S100000x1, .i1⟩
  | .hbm, ⟨75, _⟩ => ⟨S_, .f32⟩
  | .hbm, ⟨76, _⟩ => ⟨S100000x1, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S_, .f32⟩
  | .hbm, ⟨82, _⟩ => ⟨S100000x64, .i1⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S_, .f32⟩
  | .hbm, ⟨96, _⟩ => ⟨S100000x64, .f32⟩
  | .hbm, ⟨97, _⟩ => ⟨S1600000x1, .i32⟩
  | .hbm, ⟨98, _⟩ => ⟨S100000x64, .f32⟩
  | .hbm, ⟨99, _⟩ => ⟨S_, .f32⟩
  | .hbm, ⟨100, _⟩ => ⟨S1600000, .f32⟩
  | .hbm, ⟨101, _⟩ => ⟨S_, .f32⟩
  | .hbm, ⟨102, _⟩ => ⟨S100000, .f32⟩
  | .hbm, ⟨103, _⟩ => ⟨S1600000x1, .i32⟩
  | .hbm, ⟨104, _⟩ => ⟨S100000, .f32⟩
  | .hbm, ⟨105, _⟩ => ⟨S100000x1, .f32⟩
  | .hbm, ⟨106, _⟩ => ⟨S_, .f32⟩
  | .hbm, ⟨107, _⟩ => ⟨S100000x1, .f32⟩
  | .hbm, ⟨108, _⟩ => ⟨S100000x1, .i1⟩
  | .hbm, ⟨109, _⟩ => ⟨S_, .f32⟩
  | .hbm, ⟨110, _⟩ => ⟨S100000x1, .f32⟩
  | .hbm, ⟨111, _⟩ => ⟨S100000x1, .f32⟩
  | .hbm, ⟨112, _⟩ => ⟨S100000x64, .f32⟩
  | .hbm, ⟨113, _⟩ => ⟨S100000x64, .f32⟩
  | .hbm, ⟨114, _⟩ => ⟨S_, .f32⟩
  | .hbm, ⟨115, _⟩ => ⟨S_, .f32⟩
  | .hbm, ⟨116, _⟩ => ⟨S100000x64, .i1⟩
  | .hbm, ⟨117, _⟩ => ⟨S100000x64, .f32⟩
  | .hbm, ⟨118, _⟩ => ⟨S100000x64, .f32⟩
  | .hbm, ⟨119, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_v3_2 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_c_7 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_8 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_9 : Ref sig .tc := ⟨.hbm, 65, rfl⟩
abbrev main_v36 : Ref sig .tc := ⟨.hbm, 66, rfl⟩
abbrev main_cst_10 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_11 : Ref sig .tc := ⟨.hbm, 72, rfl⟩
abbrev main_v41 : Ref sig .tc := ⟨.hbm, 73, rfl⟩
abbrev main_v42 : Ref sig .tc := ⟨.hbm, 74, rfl⟩
abbrev main_cst_12 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_13 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v47 : Ref sig .tc := ⟨.hbm, 84, rfl⟩
abbrev main_v48 : Ref sig .tc := ⟨.hbm, 85, rfl⟩
abbrev main_c_14 : Ref sig .tc := ⟨.hbm, 86, rfl⟩
abbrev main_v49 : Ref sig .tc := ⟨.hbm, 87, rfl⟩
abbrev main_v50 : Ref sig .tc := ⟨.hbm, 88, rfl⟩
abbrev main_c_15 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_16 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_17 : Ref sig .tc := ⟨.hbm, 99, rfl⟩
abbrev main_v59 : Ref sig .tc := ⟨.hbm, 100, rfl⟩
abbrev main_cst_18 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_19 : Ref sig .tc := ⟨.hbm, 106, rfl⟩
abbrev main_v64 : Ref sig .tc := ⟨.hbm, 107, rfl⟩
abbrev main_v65 : Ref sig .tc := ⟨.hbm, 108, rfl⟩
abbrev main_cst_20 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_21 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_v70 : Ref sig .tc := ⟨.hbm, 118, rfl⟩
abbrev main_v71 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S10000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S10000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S100000x64.size a
  hwx0_7 : ∀ i : grid0.Coords, EltTy.bits .f32 = 32 ∨ (Rect.block (s := S100000x64) S10000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x64.size a ≤ S100000x64.size a
  hwx0_8 : ∀ i : grid0.Coords, EltTy.bits .f32 = 32 ∨ (Rect.block (s := S100000x64) S10000x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x64.size a ≤ S100000x64.size a
  hwx0_9 : ∀ i : grid0.Coords, EltTy.bits .f32 = 32 ∨ (Rect.block (s := S100000x64) S10000x64.size (cc0_transform_9 i) (hinb0_9 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S10000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S10000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S10000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 126
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S100000x64, .f32⟩
  | .hbm, ⟨14, _⟩ => ⟨S1x64, .f32⟩
  | .hbm, ⟨15, _⟩ => ⟨S100000x64, .f32⟩
  | .hbm, ⟨16, _⟩ => ⟨S100000x64, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S100000x1, .f32⟩
  | .hbm, ⟨37, _⟩ => ⟨S_, .f32⟩
  | .hbm, ⟨38, _⟩ => ⟨S100000x1, .f32⟩
  | .hbm, ⟨39, _⟩ => ⟨S100000x1, .i1⟩
  | .hbm, ⟨40, _⟩ => ⟨S_, .f32⟩
  | .hbm, ⟨41, _⟩ => ⟨S100000x1, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S_, .f32⟩
  | .hbm, ⟨47, _⟩ => ⟨S100000x64, .i1⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S_, .f32⟩
  | .hbm, ⟨68, _⟩ => ⟨S1600000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S100000x1, .f32⟩
  | .hbm, ⟨74, _⟩ => ⟨S_, .f32⟩
  | .hbm, ⟨75, _⟩ => ⟨S100000x1, .f32⟩
  | .hbm, ⟨76, _⟩ => ⟨S100000x1, .i1⟩
  | .hbm, ⟨77, _⟩ => ⟨S_, .f32⟩
  | .hbm, ⟨78, _⟩ => ⟨S100000x1, .f32⟩
  | .hbm, ⟨79, _⟩ => ⟨S100000x1, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S_, .f32⟩
  | .hbm, ⟨84, _⟩ => ⟨S100000x64, .i1⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x64, .f32⟩
  | .hbm, ⟨101, _⟩ => ⟨S_, .f32⟩
  | .hbm, ⟨102, _⟩ => ⟨S100000x64, .f32⟩
  | .hbm, ⟨103, _⟩ => ⟨S1600000x1, .i32⟩
  | .hbm, ⟨104, _⟩ => ⟨S100000x64, .f32⟩
  | .hbm, ⟨105, _⟩ => ⟨S_, .f32⟩
  | .hbm, ⟨106, _⟩ => ⟨S1600000, .f32⟩
  | .hbm, ⟨107, _⟩ => ⟨S_, .f32⟩
  | .hbm, ⟨108, _⟩ => ⟨S100000, .f32⟩
  | .hbm, ⟨109, _⟩ => ⟨S1600000x1, .i32⟩
  | .hbm, ⟨110, _⟩ => ⟨S100000, .f32⟩
  | .hbm, ⟨111, _⟩ => ⟨S100000x1, .f32⟩
  | .hbm, ⟨112, _⟩ => ⟨S_, .f32⟩
  | .hbm, ⟨113, _⟩ => ⟨S100000x1, .f32⟩
  | .hbm, ⟨114, _⟩ => ⟨S100000x1, .i1⟩
  | .hbm, ⟨115, _⟩ => ⟨S_, .f32⟩
  | .hbm, ⟨116, _⟩ => ⟨S100000x1, .f32⟩
  | .hbm, ⟨117, _⟩ => ⟨S100000x1, .f32⟩
  | .hbm, ⟨118, _⟩ => ⟨S100000x64, .f32⟩
  | .hbm, ⟨119, _⟩ => ⟨S100000x64, .f32⟩
  | .hbm, ⟨120, _⟩ => ⟨S_, .f32⟩
  | .hbm, ⟨121, _⟩ => ⟨S_, .f32⟩
  | .hbm, ⟨122, _⟩ => ⟨S100000x64, .i1⟩
  | .hbm, ⟨123, _⟩ => ⟨S100000x64, .f32⟩
  | .hbm, ⟨124, _⟩ => ⟨S100000x64, .f32⟩
  | .hbm, ⟨125, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_cst_10 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_11 : Ref sig .tc := ⟨.hbm, 74, rfl⟩
abbrev main_v45 : Ref sig .tc := ⟨.hbm, 75, rfl⟩
abbrev main_v46 : Ref sig .tc := ⟨.hbm, 76, rfl⟩
abbrev main_cst_12 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_13 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_14 : Ref sig .tc := ⟨.hbm, 92, rfl⟩
abbrev main_v57 : Ref sig .tc := ⟨.hbm, 93, rfl⟩
abbrev main_v58 : Ref sig .tc := ⟨.hbm, 94, rfl⟩
abbrev main_c_15 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_16 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_17 : Ref sig .tc := ⟨.hbm, 105, rfl⟩
abbrev main_v67 : Ref sig .tc := ⟨.hbm, 106, rfl⟩
abbrev main_cst_18 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_19 : Ref sig .tc := ⟨.hbm, 112, rfl⟩
abbrev main_v72 : Ref sig .tc := ⟨.hbm, 113, rfl⟩
abbrev main_v73 : Ref sig .tc := ⟨.hbm, 114, rfl⟩
abbrev main_cst_20 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_21 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_v78 : Ref sig .tc := ⟨.hbm, 124, rfl⟩
abbrev main_v79 : Ref sig .tc := ⟨.hbm, 125, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.HostLinesBits.lean ====
/-
  The host lines around the one region of `Kernel`: three reshapes of the bias vectors before it, and after it the
  gather / segment-sum / mean / select lines of the three edge types and their sum (101 lines in seven stretches).
  Stated here: what the region finds in each buffer (`V0`, `V`), that @main is "lines, region, lines", and the three
  facts the lines after the region owe the region — they touch only unscoped TensorCore buffers, allocate nothing,
  and write none of the ten arrays the region's windows stage. The last is read off ONE list of the references
  those lines write (each line writes its own result buffer, buffers 19 … 119 of the table, while the arrays are
  buffers 0, 1, 3, 5 and 13 … 18), so that an argument array is seen unchanged by deciding membership in that list.
-/
import proofs.«161949_j44727789420554_1_alg».proof.Proof.Gen.Kernel.Launch
import Idealize.ShloMosaic.Lib.Pipeline.FrameBody
import Idealize.ShloMosaic.Lib.Pipeline.FrameSuffix

set_option maxRecDepth 16384

noncomputable section

namespace Cert.Kernel.Around

open Idealize.ShloMosaic Idealize.ShloMosaic.TcCoe
open Idealize.SL Idealize.SL.Sem
open Idealize.ShloMosaic.Pipeline (Dat Cfg Window cellOf)
open Cert.Kernel Cert.Kernel.Gen

variable {F : FTy → Type} [FloatOps F]
variable (m : (ℓ : Loc nD τ sig) → Buf (Elt F) ℓ) (ρ : Dev nD → PrngReg)

/-- The buffers' contents when the region is entered: the launch contents after the three reshapes. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The stretches of host lines after the region, in order. -/
abbrev tailOps : List (List (HloOp τ sig (Elt F))) :=
  [hostOps1, hostOps1_1, hostOps1_2, hostOps1_3, hostOps1_4, hostOps1_5, hostOps1_6]

/-- The references the three reshapes write. -/
abbrev headWritten : List (Ref sig .tc) := [main_v0, main_v1, main_v2]

/-- The references the lines after the region write: one per line, its result buffer. -/
abbrev tailWritten : List (Ref sig .tc) :=
  [main_c, main_v4, main_v5, main_c_0, main_v6, main_v7, main_v8, main_v9, main_v10, main_cst, main_v11, main_v12, main_v13, main_cst_1, main_v14, main_cst_2, main_v15, main_v16, main_v17, main_v18, main_cst_3, main_v19, main_v20, main_cst_4, main_v21, main_v22, main_v23, main_v24, main_cst_5, main_call0_v0, main_call0_v1, main_call0_v2, main_v25, main_c_6, main_v26, main_v27, main_c_7, main_v28, main_v29, main_v30, main_v31, main_v32, main_cst_8, main_v33, main_v34, main_v35, main_cst_9, main_v36, main_cst_10, main_v37, main_v38, main_v39, main_v40, main_cst_11, main_v41, main_v42, main_cst_12, main_v43, main_v44, main_v45, main_v46, main_cst_13, main_call1_v0, main_call1_v1, main_call1_v2, main_v47, main_v48, main_c_14, main_v49, main_v50, main_c_15, main_v51, main_v52, main_v53, main_v54, main_v55, main_cst_16, main_v56, main_v57, main_v58, main_cst_17, main_v59, main_cst_18, main_v60, main_v61, main_v62, main_v63, main_cst_19, main_v64, main_v65, main_cst_20, main_v66, main_v67, main_v68, main_v69, main_cst_21, main_call2_v0, main_call2_v1, main_call2_v2, main_v70, main_v71]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the reshapes, the region, and the later lines: it reduces to the region continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every reshape writes a reference of `headWritten`. -/
theorem head_writes : (List.flatten [hostOps0 (F := F)]).Forall fun op =>
    op.writes ⊆ ((headWritten.map (Proc.devRef (τ := τ) .tc)).toFinset) := by
  simp only [hostOps0, List.flatten_cons, List.flatten_nil, List.append_nil, List.cons_append, List.nil_append, List.Forall,
    StableHlo.reshape_writes, Finset.singleton_subset_iff, List.mem_toFinset, List.mem_map]
  repeat' apply And.intro
  all_goals (refine ⟨_, ?_, rfl⟩; decide)

/-- Every line after the region writes a reference of `tailWritten`. -/
theorem tail_writes : ((tailOps (F := F)).flatten).Forall fun op =>
    op.writes ⊆ ((tailWritten.map (Proc.devRef (τ := τ) .tc)).toFinset) := by
  simp only [tailOps, hostOps1, hostOps1_1, hostOps1_2, hostOps1_3, hostOps1_4, hostOps1_5, hostOps1_6,
    List.flatten_cons, List.flatten_nil, List.append_nil, List.cons_append, List.nil_append, List.Forall,
    StableHlo.nullary_writes, StableHlo.unary_writes, StableHlo.binary_writes, StableHlo.ternary_writes,
    Finset.singleton_subset_iff, List.mem_toFinset, List.mem_map]
  repeat' apply And.intro
  all_goals (refine ⟨_, ?_, rfl⟩; decide)

/-- No array a window stages is written after the region. -/
theorem arr_not_tailWritten : ∀ w : Fin 10, Pipeline.arrRef spec0 w ∉ tailWritten := by decide

/-- A reference the reshapes do not write holds its launch contents when the region is entered. -/
theorem V_of_not_written (c : Dev nD) (r : Ref sig .tc) (hr : r ∉ headWritten) :
    V m c r = m ((c : Thread nD τ).loc r) :=
  StableHlo.after_of_writes_sub (List.flatten [hostOps0]) _ head_writes hr

/-- The later lines touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- And they write no array of the region: each writes only its own result buffer. -/
theorem sfx_keeps : ∀ ops ∈ (tailOps : List (List (HloOp τ sig (Elt F)))), ∀ op ∈ ops,
    ∀ w, Proc.devRef .tc (Pipeline.arrRef spec0 w) ∉ op.writes := by
  intro ops hops op hop w hw
  have hop' : op ∈ (tailOps (F := F)).flatten := List.mem_flatten.mpr ⟨ops, hops, hop⟩
  obtain ⟨y, hy, he⟩ := List.mem_map.mp (List.mem_toFinset.mp ((List.forall_iff_forall_mem.mp tail_writes) op hop' hw))
  exact arr_not_tailWritten w (Proc.devRef_injective _ he ▸ hy)

/-- A reference that is no array of the region and that no later line writes ends at its region-entry contents. -/
theorem tail_keeps (dats : (p : Fin 1) → (c : Dev nD) → Dat τ (Elt F) Unit ℕ (UR sig nD τ) ℕ (cfgs p) c) (c : Dev nD)
    (r : Ref sig .tc) (hr : r ∉ tailWritten) (ha : ∀ w, Pipeline.arrRef spec0 w ≠ r) :
    Pipeline.afterTail₀ cfgs dats 0 (V0 m) tailOps c r = V m c r := by
  unfold Pipeline.afterTail₀
  rw [StableHlo.after_of_writes_sub _ _ tail_writes hr, Pipeline.withArrays_of_ne _ c (V0 m c) _ r ha]

end Cert.Kernel.Around

end
-- ==== Proof.BodyBits.lean ====
/-
  The body of the one kernel of `Kernel`, run once: it loads the row block `x` (10000 × 64), the three weight
  matrices (64 × 64) and the three bias rows (1 × 64), and stores into each of its three output blocks, whole,
  the product of the block with one weight matrix plus that matrix's bias row broadcast down the rows (the
  payloads `k0_pay2`, `k0_pay3`, `k0_pay4`). Each output buffer is also loaded once before its store; the loaded
  value is not used. Stated here: what each output buffer holds afterwards, as a function of the input blocks, and the
  body's triple — the inputs are returned as they were, each output at that function, whatever it held before.
-/
import proofs.«161949_j44727789420554_1_alg».proof.Proof.Gen.Kernel.Launch
import proofs.«161949_j44727789420554_1_alg».proof.Proof.Gen.Kernel.Skeleton
import proofs.«161949_j44727789420554_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole row block, the whole weight matrix, the whole bias row: the only rectangles the body touches. -/
abbrev rRows : Rect S10000x64 := Rect.unit (s := S10000x64) ![0, 0] S10000x64.size inb_S10000x64_S10000x64_0_0
abbrev rMat : Rect S64x64 := Rect.unit (s := S64x64) ![0, 0] S64x64.size inb_S64x64_S64x64_0_0
abbrev rBias : Rect S1x64 := Rect.unit (s := S1x64) ![0, 0] S1x64.size inb_S1x64_S1x64_0_0

/-- Output block `e` after the body: the one whole-block store of `x · W_e + b_e`. -/
def proj0 (x : Vec F S10000x64 .f32) (w : Vec F S64x64 .f32) (b : Vec F S1x64 .f32) : Vec F S10000x64 .f32 :=
  View.canon [⟨rRows, k0_pay2 (View.ld x rRows) (View.ld w rMat) (View.ld b rBias)⟩]
def proj1 (x : Vec F S10000x64 .f32) (w : Vec F S64x64 .f32) (b : Vec F S1x64 .f32) : Vec F S10000x64 .f32 :=
  View.canon [⟨rRows, k0_pay3 (View.ld x rRows) (View.ld w rMat) (View.ld b rBias)⟩]
def proj2 (x : Vec F S10000x64 .f32) (w : Vec F S64x64 .f32) (b : Vec F S1x64 .f32) : Vec F S10000x64 .f32 :=
  View.canon [⟨rRows, k0_pay4 (View.ld x rRows) (View.ld w rMat) (View.ld b rBias)⟩]

/-- The one store covers the block: its rectangle is the whole block. -/
theorem rows_cover (p0 : Vec F S10000x64 .f32) (y : S10000x64.Idx) :
    ∃ pc ∈ ([⟨rRows, p0⟩] : List (View.Piece (Elt F) S10000x64 .f32)), y ∈ pc.1.set :=
  View.cover_of_tiled [⟨rRows, p0⟩] S10000x64.size (by rfl) y

set_option maxHeartbeats 4000000 in
/-- The body on whole staging memrefs: the seven inputs at contents `x, w_e, b_e`, the three outputs at anything; it
    returns the inputs as they were and output `e` at `proj_e x w_e b_e`. -/
theorem sound_kernel (c : Dev nD) (E : Set ℕ) (i : grid0.Coords) (a1 : Memref sig .tc .vmem S10000x64 .f32) (ha1 : a1.IsWhole) (a2 : Memref sig .tc .vmem S64x64 .f32) (ha2 : a2.IsWhole) (a3 : Memref sig .tc .vmem S1x64 .f32) (ha3 : a3.IsWhole) (a4 : Memref sig .tc .vmem S64x64 .f32) (ha4 : a4.IsWhole) (a5 : Memref sig .tc .vmem S1x64 .f32) (ha5 : a5.IsWhole) (a6 : Memref sig .tc .vmem S64x64 .f32) (ha6 : a6.IsWhole) (a7 : Memref sig .tc .vmem S1x64 .f32) (ha7 : a7.IsWhole) (a8 : Memref sig .tc .vmem S10000x64 .f32) (ha8 : a8.IsWhole) (a9 : Memref sig .tc .vmem S10000x64 .f32) (ha9 : a9.IsWhole) (a10 : Memref sig .tc .vmem S10000x64 .f32) (ha10 : a10.IsWhole)
    (x : Vec F S10000x64 .f32) (w0 : Vec F S64x64 .f32) (b0 : Vec F S1x64 .f32) (w1 : Vec F S64x64 .f32) (b1 : Vec F S1x64 .f32)
    (w2 : Vec F S64x64 .f32) (b2 : Vec F S1x64 .f32) (K : PUnit → sProp 𝕄) :
    iprop(owns (c : Thread nD τ) a1 fullShare x ∗ owns (c : Thread nD τ) a2 fullShare w0 ∗ owns (c : Thread nD τ) a3 fullShare b0 ∗ owns (c : Thread nD τ) a4 fullShare w1 ∗ owns (c : Thread nD τ) a5 fullShare b1 ∗ owns (c : Thread nD τ) a6 fullShare w2 ∗ owns (c : Thread nD τ) a7 fullShare b2
        ∗ (∃ d, owns (c : Thread nD τ) a8 fullShare d) ∗ (∃ d, owns (c : Thread nD τ) a9 fullShare d) ∗ (∃ d, owns (c : Thread nD τ) a10 fullShare d)
        ∗ (iprop(owns (c : Thread nD τ) a1 fullShare x ∗ owns (c : Thread nD τ) a2 fullShare w0 ∗ owns (c : Thread nD τ) a3 fullShare b0 ∗ owns (c : Thread nD τ) a4 fullShare w1 ∗ owns (c : Thread nD τ) a5 fullShare b1 ∗ owns (c : Thread nD τ) a6 fullShare w2 ∗ owns (c : Thread nD τ) a7 fullShare b2 ∗ owns (c : Thread nD τ) a8 fullShare (proj0 x w0 b0) ∗ owns (c : Thread nD τ) a9 fullShare (proj1 x w1 b1) ∗ owns (c : Thread nD τ) a10 fullShare (proj2 x w2 b2)) -∗ K ⟨⟩))
      ⊢ wp frame (wpE (defs₀ (F := F)) Variants.none c none) E (cc0__hetero_linear_kernel i a1 ha1 a2 ha2 a3 ha3 a4 ha4 a5 ha5 a6 ha6 a7 ha7 a8 ha8 a9 ha9 a10 ha10) K := by
  simp only [cc0__hetero_linear_kernel_eq_skeleton]; unfold cc0__hetero_linear_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (rows_cover _)
  isplitl [H9]
  · iexists _; isplitr
    swap; · iexact H9
    ipureintro
    exact View.read_writes_eq_canon _ _ _ (rows_cover _)
  iexists _; isplitr
  swap; · iexact H10
  ipureintro
  exact View.read_writes_eq_canon _ _ _ (rows_cover _)

end Cert.Kernel.Around

end
-- ==== Proof.LaunchBits.lean ====
/-
  The launch of the one region of `Kernel` and the frame. Window `w`'s block at grid point `t` is rows
  `10000·t … 10000·t + 9999` of its array for the row block and the three outputs, and the whole array for the three
  weight matrices and the three bias rows (fetched once, at the first point, and found in place afterwards). After the body
  at point `t` every input buffer still holds its block and output `e`'s buffer holds `proj_e` of the row block, the
  `e`-th weight matrix and the `e`-th bias row. With that proof data the library's launch theorem for "host lines,
  region, host lines" runs @main; the thirteen argument arrays end as launched because no host line writes one and the
  region writes back only its three outputs.
-/
import proofs.«161949_j44727789420554_1_alg».proof.Proof.HostLinesBits
import proofs.«161949_j44727789420554_1_alg».proof.Proof.BodyBits

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: arrays as the region finds them; after the body each input buffer at its block and each output
    buffer at the projection of the row block; nothing kept between points; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => proj0 (iblk m c 0 t) (iblk m c 1 t) (iblk m c 2 t)
    | ⟨8, _⟩ => proj1 (iblk m c 0 t) (iblk m c 3 t) (iblk m c 4 t)
    | ⟨9, _⟩ => proj2 (iblk m c 0 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = proj0 (iblk m c 0 t) (iblk m c 1 t) (iblk m c 2 t) := by dsimp only [dats]
theorem after_8 (c : Dev nD) (t : Fin cfg0.N) : (dats m 0 c).after 8 t = proj1 (iblk m c 0 t) (iblk m c 3 t) (iblk m c 4 t) := by dsimp only [dats]
theorem after_9 (c : Dev nD) (t : Fin cfg0.N) : (dats m 0 c).after 9 t = proj2 (iblk m c 0 t) (iblk m c 5 t) (iblk m c 6 t) := by dsimp only [dats]

/-- Each input's current staging buffer holds its block at every point, fetched there or not. -/
theorem before_in0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_in5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_in6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates; afterwards each array of the region holds what the proof data
    computes for it and every other unscoped buffer what the later host lines leave in it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs and the thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans ((((dats m 0 c).arrAt_in 0 rfl _).trans (A_eq m c 0)).trans (V_of_not_written m c main_arg0 (by decide))),
      ((h c).1 1).trans ((((dats m 0 c).arrAt_in 1 rfl _).trans (A_eq m c 1)).trans (V_of_not_written m c main_arg1 (by decide))),
      (((h c).2 main_arg2 (Pipeline.mem_restRefs_of main_arg2 (by decide) (by decide))).trans (tail_keeps m (dats m) c main_arg2 (by decide) (by decide))).trans (V_of_not_written m c main_arg2 (by decide)),
      ((h c).1 3).trans ((((dats m 0 c).arrAt_in 3 rfl _).trans (A_eq m c 3)).trans (V_of_not_written m c main_arg3 (by decide))),
      (((h c).2 main_arg4 (Pipeline.mem_restRefs_of main_arg4 (by decide) (by decide))).trans (tail_keeps m (dats m) c main_arg4 (by decide) (by decide))).trans (V_of_not_written m c main_arg4 (by decide)),
      ((h c).1 5).trans ((((dats m 0 c).arrAt_in 5 rfl _).trans (A_eq m c 5)).trans (V_of_not_written m c main_arg5 (by decide))),
      (((h c).2 main_arg6 (Pipeline.mem_restRefs_of main_arg6 (by decide) (by decide))).trans (tail_keeps m (dats m) c main_arg6 (by decide) (by decide))).trans (V_of_not_written m c main_arg6 (by decide)),
      (((h c).2 main_arg7 (Pipeline.mem_restRefs_of main_arg7 (by decide) (by decide))).trans (tail_keeps m (dats m) c main_arg7 (by decide) (by decide))).trans (V_of_not_written m c main_arg7 (by decide)),
      (((h c).2 main_arg8 (Pipeline.mem_restRefs_of main_arg8 (by decide) (by decide))).trans (tail_keeps m (dats m) c main_arg8 (by decide) (by decide))).trans (V_of_not_written m c main_arg8 (by decide)),
      (((h c).2 main_arg9 (Pipeline.mem_restRefs_of main_arg9 (by decide) (by decide))).trans (tail_keeps m (dats m) c main_arg9 (by decide) (by decide))).trans (V_of_not_written m c main_arg9 (by decide)),
      (((h c).2 main_arg10 (Pipeline.mem_restRefs_of main_arg10 (by decide) (by decide))).trans (tail_keeps m (dats m) c main_arg10 (by decide) (by decide))).trans (V_of_not_written m c main_arg10 (by decide)),
      (((h c).2 main_arg11 (Pipeline.mem_restRefs_of main_arg11 (by decide) (by decide))).trans (tail_keeps m (dats m) c main_arg11 (by decide) (by decide))).trans (V_of_not_written m c main_arg11 (by decide)),
      (((h c).2 main_arg12 (Pipeline.mem_restRefs_of main_arg12 (by decide) (by decide))).trans (tail_keeps m (dats m) c main_arg12 (by decide) (by decide))).trans (V_of_not_written m c main_arg12 (by decide))⟩) (run_main m ρ)

end Cert.Kernel.Around

end
-- ==== Proof.HostLinesIdeal.lean ====
/-
  The host lines around the one region of `KernelIdeal`: three reshapes of the bias vectors before it, and after it the
  gather / segment-sum / mean / select lines of the three edge types and their sum (101 lines in seven stretches).
  Stated here: what the region finds in each buffer (`V0`, `V`), that @main is "lines, region, lines", and the three
  facts the lines after the region owe the region — they touch only unscoped TensorCore buffers, allocate nothing,
  and write none of the ten arrays the region's windows stage. The last is read off ONE list of the references
  those lines write (each line writes its own result buffer, buffers 19 … 119 of the table, while the arrays are
  buffers 0, 1, 3, 5 and 13 … 18), so that an argument array is seen unchanged by deciding membership in that list.
-/
import proofs.«161949_j44727789420554_1_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Around

open Idealize.ShloMosaic Idealize.ShloMosaic.TcCoe
open Idealize.SL Idealize.SL.Sem
open Idealize.ShloMosaic.Pipeline (Dat Cfg Window cellOf)
open Cert.KernelIdeal Cert.KernelIdeal.Gen

variable {F : FTy → Type} [FloatOps F]
variable (m : (ℓ : Loc nD τ sig) → Buf (Elt F) ℓ) (ρ : Dev nD → PrngReg)

/-- The buffers' contents when the region is entered: the launch contents after the three reshapes. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The stretches of host lines after the region, in order. -/
abbrev tailOps : List (List (HloOp τ sig (Elt F))) :=
  [hostOps1, hostOps1_1, hostOps1_2, hostOps1_3, hostOps1_4, hostOps1_5, hostOps1_6]

/-- The references the three reshapes write. -/
abbrev headWritten : List (Ref sig .tc) := [main_v0, main_v1, main_v2]

/-- The references the lines after the region write: one per line, its result buffer. -/
abbrev tailWritten : List (Ref sig .tc) :=
  [main_c, main_v4, main_v5, main_c_0, main_v6, main_v7, main_v8, main_v9, main_v10, main_cst, main_v11, main_v12, main_v13, main_cst_1, main_v14, main_cst_2, main_v15, main_v16, main_v17, main_v18, main_cst_3, main_v19, main_v20, main_cst_4, main_v21, main_v22, main_v23, main_v24, main_cst_5, main_call0_v0, main_call0_v1, main_call0_v2, main_v25, main_c_6, main_v26, main_v27, main_c_7, main_v28, main_v29, main_v30, main_v31, main_v32, main_cst_8, main_v33, main_v34, main_v35, main_cst_9, main_v36, main_cst_10, main_v37, main_v38, main_v39, main_v40, main_cst_11, main_v41, main_v42, main_cst_12, main_v43, main_v44, main_v45, main_v46, main_cst_13, main_call1_v0, main_call1_v1, main_call1_v2, main_v47, main_v48, main_c_14, main_v49, main_v50, main_c_15, main_v51, main_v52, main_v53, main_v54, main_v55, main_cst_16, main_v56, main_v57, main_v58, main_cst_17, main_v59, main_cst_18, main_v60, main_v61, main_v62, main_v63, main_cst_19, main_v64, main_v65, main_cst_20, main_v66, main_v67, main_v68, main_v69, main_cst_21, main_call2_v0, main_call2_v1, main_call2_v2, main_v70, main_v71]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the reshapes, the region, and the later lines: it reduces to the region continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every reshape writes a reference of `headWritten`. -/
theorem head_writes : (List.flatten [hostOps0 (F := F)]).Forall fun op =>
    op.writes ⊆ ((headWritten.map (Proc.devRef (τ := τ) .tc)).toFinset) := by
  simp only [hostOps0, List.flatten_cons, List.flatten_nil, List.append_nil, List.cons_append, List.nil_append, List.Forall,
    StableHlo.reshape_writes, Finset.singleton_subset_iff, List.mem_toFinset, List.mem_map]
  repeat' apply And.intro
  all_goals (refine ⟨_, ?_, rfl⟩; decide)

/-- Every line after the region writes a reference of `tailWritten`. -/
theorem tail_writes : ((tailOps (F := F)).flatten).Forall fun op =>
    op.writes ⊆ ((tailWritten.map (Proc.devRef (τ := τ) .tc)).toFinset) := by
  simp only [tailOps, hostOps1, hostOps1_1, hostOps1_2, hostOps1_3, hostOps1_4, hostOps1_5, hostOps1_6,
    List.flatten_cons, List.flatten_nil, List.append_nil, List.cons_append, List.nil_append, List.Forall,
    StableHlo.nullary_writes, StableHlo.unary_writes, StableHlo.binary_writes, StableHlo.ternary_writes,
    Finset.singleton_subset_iff, List.mem_toFinset, List.mem_map]
  repeat' apply And.intro
  all_goals (refine ⟨_, ?_, rfl⟩; decide)

/-- No array a window stages is written after the region. -/
theorem arr_not_tailWritten : ∀ w : Fin 10, Pipeline.arrRef spec0 w ∉ tailWritten := by decide

/-- A reference the reshapes do not write holds its launch contents when the region is entered. -/
theorem V_of_not_written (c : Dev nD) (r : Ref sig .tc) (hr : r ∉ headWritten) :
    V m c r = m ((c : Thread nD τ).loc r) :=
  StableHlo.after_of_writes_sub (List.flatten [hostOps0]) _ head_writes hr

/-- The later lines touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- And they write no array of the region: each writes only its own result buffer. -/
theorem sfx_keeps : ∀ ops ∈ (tailOps : List (List (HloOp τ sig (Elt F)))), ∀ op ∈ ops,
    ∀ w, Proc.devRef .tc (Pipeline.arrRef spec0 w) ∉ op.writes := by
  intro ops hops op hop w hw
  have hop' : op ∈ (tailOps (F := F)).flatten := List.mem_flatten.mpr ⟨ops, hops, hop⟩
  obtain ⟨y, hy, he⟩ := List.mem_map.mp (List.mem_toFinset.mp ((List.forall_iff_forall_mem.mp tail_writes) op hop' hw))
  exact arr_not_tailWritten w (Proc.devRef_injective _ he ▸ hy)

/-- A reference that is no array of the region and that no later line writes ends at its region-entry contents. -/
theorem tail_keeps (dats : (p : Fin 1) → (c : Dev nD) → Dat τ (Elt F) Unit ℕ (UR sig nD τ) ℕ (cfgs p) c) (c : Dev nD)
    (r : Ref sig .tc) (hr : r ∉ tailWritten) (ha : ∀ w, Pipeline.arrRef spec0 w ≠ r) :
    Pipeline.afterTail₀ cfgs dats 0 (V0 m) tailOps c r = V m c r := by
  unfold Pipeline.afterTail₀
  rw [StableHlo.after_of_writes_sub _ _ tail_writes hr, Pipeline.withArrays_of_ne _ c (V0 m c) _ r ha]

end Cert.KernelIdeal.Around

end
-- ==== Proof.BodyIdeal.lean ====
/-
  The body of the one kernel of `KernelIdeal`, run once: it loads the row block `x` (10000 × 64), the three weight
  matrices (64 × 64) and the three bias rows (1 × 64), and stores into each of its three output blocks, whole,
  the product of the block with one weight matrix plus that matrix's bias row broadcast down the rows (the
  payloads `k0_pay2`, `k0_pay3`, `k0_pay4`). Each output buffer is also loaded once before its store; the loaded
  value is not used. Stated here: what each output buffer holds afterwards, as a function of the input blocks, and the
  body's triple — the inputs are returned as they were, each output at that function, whatever it held before.
-/
import proofs.«161949_j44727789420554_1_alg».proof.Proof.Gen.KernelIdeal.Launch
import proofs.«161949_j44727789420554_1_alg».proof.Proof.Gen.KernelIdeal.Skeleton
import proofs.«161949_j44727789420554_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole row block, the whole weight matrix, the whole bias row: the only rectangles the body touches. -/
abbrev rRows : Rect S10000x64 := Rect.unit (s := S10000x64) ![0, 0] S10000x64.size inb_S10000x64_S10000x64_0_0
abbrev rMat : Rect S64x64 := Rect.unit (s := S64x64) ![0, 0] S64x64.size inb_S64x64_S64x64_0_0
abbrev rBias : Rect S1x64 := Rect.unit (s := S1x64) ![0, 0] S1x64.size inb_S1x64_S1x64_0_0

/-- Output block `e` after the body: the one whole-block store of `x · W_e + b_e`. -/
def proj0 (x : Vec F S10000x64 .f32) (w : Vec F S64x64 .f32) (b : Vec F S1x64 .f32) : Vec F S10000x64 .f32 :=
  View.canon [⟨rRows, k0_pay2 (View.ld x rRows) (View.ld w rMat) (View.ld b rBias)⟩]
def proj1 (x : Vec F S10000x64 .f32) (w : Vec F S64x64 .f32) (b : Vec F S1x64 .f32) : Vec F S10000x64 .f32 :=
  View.canon [⟨rRows, k0_pay3 (View.ld x rRows) (View.ld w rMat) (View.ld b rBias)⟩]
def proj2 (x : Vec F S10000x64 .f32) (w : Vec F S64x64 .f32) (b : Vec F S1x64 .f32) : Vec F S10000x64 .f32 :=
  View.canon [⟨rRows, k0_pay4 (View.ld x rRows) (View.ld w rMat) (View.ld b rBias)⟩]

/-- The one store covers the block: its rectangle is the whole block. -/
theorem rows_cover (p0 : Vec F S10000x64 .f32) (y : S10000x64.Idx) :
    ∃ pc ∈ ([⟨rRows, p0⟩] : List (View.Piece (Elt F) S10000x64 .f32)), y ∈ pc.1.set :=
  View.cover_of_tiled [⟨rRows, p0⟩] S10000x64.size (by rfl) y

set_option maxHeartbeats 4000000 in
/-- The body on whole staging memrefs: the seven inputs at contents `x, w_e, b_e`, the three outputs at anything; it
    returns the inputs as they were and output `e` at `proj_e x w_e b_e`. -/
theorem sound_kernel (c : Dev nD) (E : Set ℕ) (i : grid0.Coords) (a1 : Memref sig .tc .vmem S10000x64 .f32) (ha1 : a1.IsWhole) (a2 : Memref sig .tc .vmem S64x64 .f32) (ha2 : a2.IsWhole) (a3 : Memref sig .tc .vmem S1x64 .f32) (ha3 : a3.IsWhole) (a4 : Memref sig .tc .vmem S64x64 .f32) (ha4 : a4.IsWhole) (a5 : Memref sig .tc .vmem S1x64 .f32) (ha5 : a5.IsWhole) (a6 : Memref sig .tc .vmem S64x64 .f32) (ha6 : a6.IsWhole) (a7 : Memref sig .tc .vmem S1x64 .f32) (ha7 : a7.IsWhole) (a8 : Memref sig .tc .vmem S10000x64 .f32) (ha8 : a8.IsWhole) (a9 : Memref sig .tc .vmem S10000x64 .f32) (ha9 : a9.IsWhole) (a10 : Memref sig .tc .vmem S10000x64 .f32) (ha10 : a10.IsWhole)
    (x : Vec F S10000x64 .f32) (w0 : Vec F S64x64 .f32) (b0 : Vec F S1x64 .f32) (w1 : Vec F S64x64 .f32) (b1 : Vec F S1x64 .f32)
    (w2 : Vec F S64x64 .f32) (b2 : Vec F S1x64 .f32) (K : PUnit → sProp 𝕄) :
    iprop(owns (c : Thread nD τ) a1 fullShare x ∗ owns (c : Thread nD τ) a2 fullShare w0 ∗ owns (c : Thread nD τ) a3 fullShare b0 ∗ owns (c : Thread nD τ) a4 fullShare w1 ∗ owns (c : Thread nD τ) a5 fullShare b1 ∗ owns (c : Thread nD τ) a6 fullShare w2 ∗ owns (c : Thread nD τ) a7 fullShare b2
        ∗ (∃ d, owns (c : Thread nD τ) a8 fullShare d) ∗ (∃ d, owns (c : Thread nD τ) a9 fullShare d) ∗ (∃ d, owns (c : Thread nD τ) a10 fullShare d)
        ∗ (iprop(owns (c : Thread nD τ) a1 fullShare x ∗ owns (c : Thread nD τ) a2 fullShare w0 ∗ owns (c : Thread nD τ) a3 fullShare b0 ∗ owns (c : Thread nD τ) a4 fullShare w1 ∗ owns (c : Thread nD τ) a5 fullShare b1 ∗ owns (c : Thread nD τ) a6 fullShare w2 ∗ owns (c : Thread nD τ) a7 fullShare b2 ∗ owns (c : Thread nD τ) a8 fullShare (proj0 x w0 b0) ∗ owns (c : Thread nD τ) a9 fullShare (proj1 x w1 b1) ∗ owns (c : Thread nD τ) a10 fullShare (proj2 x w2 b2)) -∗ K ⟨⟩))
      ⊢ wp frame (wpE (defs₀ (F := F)) Variants.none c none) E (cc0__hetero_linear_kernel i a1 ha1 a2 ha2 a3 ha3 a4 ha4 a5 ha5 a6 ha6 a7 ha7 a8 ha8 a9 ha9 a10 ha10) K := by
  simp only [cc0__hetero_linear_kernel_eq_skeleton]; unfold cc0__hetero_linear_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (rows_cover _)
  isplitl [H9]
  · iexists _; isplitr
    swap; · iexact H9
    ipureintro
    exact View.read_writes_eq_canon _ _ _ (rows_cover _)
  iexists _; isplitr
  swap; · iexact H10
  ipureintro
  exact View.read_writes_eq_canon _ _ _ (rows_cover _)

end Cert.KernelIdeal.Around

end
-- ==== Proof.LaunchIdeal.lean ====
/-
  The launch of the one region of `KernelIdeal` and the frame. Window `w`'s block at grid point `t` is rows
  `10000·t … 10000·t + 9999` of its array for the row block and the three outputs, and the whole array for the three
  weight matrices and the three bias rows (fetched once, at the first point, and found in place afterwards). After the body
  at point `t` every input buffer still holds its block and output `e`'s buffer holds `proj_e` of the row block, the
  `e`-th weight matrix and the `e`-th bias row. With that proof data the library's launch theorem for "host lines,
  region, host lines" runs @main; the thirteen argument arrays end as launched because no host line writes one and the
  region writes back only its three outputs.
-/
import proofs.«161949_j44727789420554_1_alg».proof.Proof.HostLinesIdeal
import proofs.«161949_j44727789420554_1_alg».proof.Proof.BodyIdeal

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: arrays as the region finds them; after the body each input buffer at its block and each output
    buffer at the projection of the row block; nothing kept between points; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => proj0 (iblk m c 0 t) (iblk m c 1 t) (iblk m c 2 t)
    | ⟨8, _⟩ => proj1 (iblk m c 0 t) (iblk m c 3 t) (iblk m c 4 t)
    | ⟨9, _⟩ => proj2 (iblk m c 0 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = proj0 (iblk m c 0 t) (iblk m c 1 t) (iblk m c 2 t) := by dsimp only [dats]
theorem after_8 (c : Dev nD) (t : Fin cfg0.N) : (dats m 0 c).after 8 t = proj1 (iblk m c 0 t) (iblk m c 3 t) (iblk m c 4 t) := by dsimp only [dats]
theorem after_9 (c : Dev nD) (t : Fin cfg0.N) : (dats m 0 c).after 9 t = proj2 (iblk m c 0 t) (iblk m c 5 t) (iblk m c 6 t) := by dsimp only [dats]

/-- Each input's current staging buffer holds its block at every point, fetched there or not. -/
theorem before_in0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_in5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_in6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates; afterwards each array of the region holds what the proof data
    computes for it and every other unscoped buffer what the later host lines leave in it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs and the thirteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans ((((dats m 0 c).arrAt_in 0 rfl _).trans (A_eq m c 0)).trans (V_of_not_written m c main_arg0 (by decide))),
      ((h c).1 1).trans ((((dats m 0 c).arrAt_in 1 rfl _).trans (A_eq m c 1)).trans (V_of_not_written m c main_arg1 (by decide))),
      (((h c).2 main_arg2 (Pipeline.mem_restRefs_of main_arg2 (by decide) (by decide))).trans (tail_keeps m (dats m) c main_arg2 (by decide) (by decide))).trans (V_of_not_written m c main_arg2 (by decide)),
      ((h c).1 3).trans ((((dats m 0 c).arrAt_in 3 rfl _).trans (A_eq m c 3)).trans (V_of_not_written m c main_arg3 (by decide))),
      (((h c).2 main_arg4 (Pipeline.mem_restRefs_of main_arg4 (by decide) (by decide))).trans (tail_keeps m (dats m) c main_arg4 (by decide) (by decide))).trans (V_of_not_written m c main_arg4 (by decide)),
      ((h c).1 5).trans ((((dats m 0 c).arrAt_in 5 rfl _).trans (A_eq m c 5)).trans (V_of_not_written m c main_arg5 (by decide))),
      (((h c).2 main_arg6 (Pipeline.mem_restRefs_of main_arg6 (by decide) (by decide))).trans (tail_keeps m (dats m) c main_arg6 (by decide) (by decide))).trans (V_of_not_written m c main_arg6 (by decide)),
      (((h c).2 main_arg7 (Pipeline.mem_restRefs_of main_arg7 (by decide) (by decide))).trans (tail_keeps m (dats m) c main_arg7 (by decide) (by decide))).trans (V_of_not_written m c main_arg7 (by decide)),
      (((h c).2 main_arg8 (Pipeline.mem_restRefs_of main_arg8 (by decide) (by decide))).trans (tail_keeps m (dats m) c main_arg8 (by decide) (by decide))).trans (V_of_not_written m c main_arg8 (by decide)),
      (((h c).2 main_arg9 (Pipeline.mem_restRefs_of main_arg9 (by decide) (by decide))).trans (tail_keeps m (dats m) c main_arg9 (by decide) (by decide))).trans (V_of_not_written m c main_arg9 (by decide)),
      (((h c).2 main_arg10 (Pipeline.mem_restRefs_of main_arg10 (by decide) (by decide))).trans (tail_keeps m (dats m) c main_arg10 (by decide) (by decide))).trans (V_of_not_written m c main_arg10 (by decide)),
      (((h c).2 main_arg11 (Pipeline.mem_restRefs_of main_arg11 (by decide) (by decide))).trans (tail_keeps m (dats m) c main_arg11 (by decide) (by decide))).trans (V_of_not_written m c main_arg11 (by decide)),
      (((h c).2 main_arg12 (Pipeline.mem_restRefs_of main_arg12 (by decide) (by decide))).trans (tail_keeps m (dats m) c main_arg12 (by decide) (by decide))).trans (V_of_not_written m c main_arg12 (by decide))⟩) (run_main m ρ)

end Cert.KernelIdeal.Around

end
-- ==== Proof.BlockEntry.lean ====
/-
  The kernel's stored value read at one entry of a block: for the row block `X` (10000 × 64), a weight matrix `W` and a
  bias row `B` (1 × 64), entry `[p, j]` of the payload is `∑ₖ X[p, k] · W[k, j] + B[0, j]` on the extended reals — the
  roundings to bf16 are the identity there, the matrix unit's product into a zero accumulator is the plain sum, and the
  broadcast of the bias row down the block reads it at the column. The three payloads are one function.
-/
import proofs.«161949_j44727789420554_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.TcCoe Idealize.SL.Sem

/-- Entry `[p, k]` of the row block, for the block entry `y = [p, j]`. -/
abbrev rowsIdx (y : S10000x64.Idx) (k : Fin 64) : S10000x64.Idx := fun a => match a with
  | ⟨0, _⟩ => ⟨(y 0).val, (y 0).isLt⟩
  | ⟨1, _⟩ => ⟨k.val, k.isLt⟩
/-- Entry `[k, j]` of the weight matrix. -/
abbrev matIdx (y : S10000x64.Idx) (k : Fin 64) : S64x64.Idx := fun a => match a with
  | ⟨0, _⟩ => ⟨k.val, k.isLt⟩
  | ⟨1, _⟩ => ⟨(y 1).val, (y 1).isLt⟩
/-- Entry `[0, j]` of the bias row. -/
abbrev rowIdx (y : S10000x64.Idx) : S1x64.Idx := fun a => match a with
  | ⟨0, _⟩ => ⟨0, Nat.one_pos⟩
  | ⟨1, _⟩ => ⟨(y 1).val, (y 1).isLt⟩

theorem lhs_row (y : S10000x64.Idx) (q : dot_S10000x64_S64x64_S10000x64_1_0_0_1_n_n.contr.Idx) : (dot_S10000x64_S64x64_S10000x64_1_0_0_1_n_n.lhsIdx y q 0).val = (y 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_contr (y : S10000x64.Idx) (q : dot_S10000x64_S64x64_S10000x64_1_0_0_1_n_n.contr.Idx) : (dot_S10000x64_S64x64_S10000x64_1_0_0_1_n_n.lhsIdx y q 1).val = (q ⟨0, by decide⟩).val :=
  dot_S10000x64_S64x64_S10000x64_1_0_0_1_n_n.lhsIdx_val_of_single rfl y q
theorem rhs_contr (y : S10000x64.Idx) (q : dot_S10000x64_S64x64_S10000x64_1_0_0_1_n_n.contr.Idx) : (dot_S10000x64_S64x64_S10000x64_1_0_0_1_n_n.rhsIdx y q 0).val = (q ⟨0, by decide⟩).val :=
  dot_S10000x64_S64x64_S10000x64_1_0_0_1_n_n.rhsIdx_val_of_single rfl y q
theorem rhs_col (y : S10000x64.Idx) (q : dot_S10000x64_S64x64_S10000x64_1_0_0_1_n_n.contr.Idx) : (dot_S10000x64_S64x64_S10000x64_1_0_0_1_n_n.rhsIdx y q 1).val = (y 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The matrix unit's product of the rounded operands into a zero accumulator, at an entry: the plain sum. -/
theorem mxu_apply (X : Vec Ideal S10000x64 .f32) (W : Vec Ideal S64x64 .f32) (y : S10000x64.Idx) :
    matmul (F := Ideal) dot_S10000x64_S64x64_S10000x64_1_0_0_1_n_n none (truncf .bf16 X bitsLt_bf16_f32) (truncf .bf16 W bitsLt_bf16_f32) (constant S10000x64 .f32 0x00000000#32) y
      = ∑ k : Fin 64, X (rowsIdx y k) * W (matIdx y k) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx y ((ValueIdx.contrEquiv1 dot_S10000x64_S64x64_S10000x64_1_0_0_1_n_n 64 rfl rfl).symm k) = rowsIdx y k := funext fun a => Fin.ext (by
    match a with
    | ⟨0, _⟩ => exact lhs_row _ _
    | ⟨1, _⟩ => exact (lhs_contr _ _).trans hk)
  have er : dot_S10000x64_S64x64_S10000x64_1_0_0_1_n_n.rhsIdx y ((ValueIdx.contrEquiv1 dot_S10000x64_S64x64_S10000x64_1_0_0_1_n_n 64 rfl rfl).symm k) = matIdx y k := funext fun a => Fin.ext (by
    match a with
    | ⟨0, _⟩ => exact (rhs_contr _ _).trans hk
    | ⟨1, _⟩ => exact rhs_col _ _)
  rw [el, er]
  rfl

/-- The bias row broadcast down the block, at an entry: the row at the column. -/
theorem biasRow_apply (B : Vec Ideal S1x64 .f32) (y : S10000x64.Idx) :
    broadcastTo S10000x64 (shapeCast S1x64 B shapeCasts_S1x64_S1x64) broadcasts_S1x64_S10000x64 y = B (rowIdx y) := by
  rw [shapeCast_self]
  exact broadcastTo_apply B broadcasts_S1x64_S10000x64 y (rowIdx y) (fun a => match a with
    | ⟨0, _⟩ => by show 0 = if (1 : Nat) = 1 then 0 else _; rw [if_pos rfl]
    | ⟨1, _⟩ => by show (y 1).val = if (64 : Nat) = 1 then 0 else (y ⟨1 + (2 - 2), _⟩).val; rw [if_neg (by decide)]; rfl)

/-- Entry `[p, j]` of the stored value: `∑ₖ X[p, k] · W[k, j] + B[0, j]`. -/
theorem pay_apply (X : Vec Ideal S10000x64 .f32) (W : Vec Ideal S64x64 .f32) (B : Vec Ideal S1x64 .f32) (y : S10000x64.Idx) :
    k0_pay2 (F := Ideal) X W B y = (∑ k : Fin 64, X (rowsIdx y k) * W (matIdx y k)) + B (rowIdx y) := by
  unfold k0_pay2 k0_pay1
  rw [ValueIdx.addf_apply, mxu_apply, biasRow_apply]

/-- The three stored values are the same function of their three loads. -/
theorem pay3_eq (X : Vec Ideal S10000x64 .f32) (W : Vec Ideal S64x64 .f32) (B : Vec Ideal S1x64 .f32) :
    k0_pay3 (F := Ideal) X W B = k0_pay2 (F := Ideal) X W B := rfl
theorem pay4_eq (X : Vec Ideal S10000x64 .f32) (W : Vec Ideal S64x64 .f32) (B : Vec Ideal S1x64 .f32) :
    k0_pay4 (F := Ideal) X W B = k0_pay2 (F := Ideal) X W B := rfl

end Cert.KernelIdeal.BlockValue

end
-- ==== Proof.MeanLayer.lean ====
/-
  The layer both programs compute, stated once over the reference's shapes. For each of the three edge types `e`:
  the node features are projected, `Wh_e = x · W_e + b_e` (`project`); every edge copies its source node's projected
  row (a negative source index first wrapped by the number of nodes), the rows are summed onto the edges' destination
  nodes, the in-degree of each node is the same sum of ones, and a node of positive in-degree gets the sum divided by
  `max(degree, 1)`, a node of in-degree zero gets `0` (`edgeMean`). The result is the sum of the three edge types' means
  (`layer`). `edgeMean` is the part the two programs share line for line; they differ only in how `Wh_e` is produced.
-/
import proofs.«161949_j44727789420554_1_alg».proof.Proof.Gen.ReferenceIdeal

set_option maxRecDepth 8192

noncomputable section

namespace Cert.ReferenceIdeal.Layer

open Cert.ReferenceIdeal Cert.ReferenceIdeal.Gen Idealize.ShloMosaic Idealize.ShloMosaic.TcCoe Idealize.SL.Sem

variable {F : FTy → Type} [FloatOps F]

/-- One edge type's projection of the node features: `x · W + b`, the bias row repeated down the rows. -/
def project (x : (⟨S100000x64, .f32⟩ : BufTy).Contents (Elt F)) (w : (⟨S64x64, .f32⟩ : BufTy).Contents (Elt F))
    (b : (⟨S64, .f32⟩ : BufTy).Contents (Elt F)) : (⟨S100000x64, .f32⟩ : BufTy).Contents (Elt F) :=
  addf (Host.dotGeneral dot_S100000x64_S64x64_S100000x64_1_0_0_1_n_n none x w) (broadcastInDim S100000x64 ![0, 1] bcast_S1x64_S100000x64_0_1 (broadcastInDim S1x64 ![1] bcast_S64_S1x64_1 b))

/-- One edge type's mean aggregation of a projected table `wh` along the edges `src → dst`. -/
def edgeMean (wh : (⟨S100000x64, .f32⟩ : BufTy).Contents (Elt F)) (src dst : (⟨S1600000, .i32⟩ : BufTy).Contents (Elt F)) :
    (⟨S100000x64, .f32⟩ : BufTy).Contents (Elt F) :=
  select (broadcastInDim S100000x64 ![0, 1] bcast_S100000x1_S100000x64_0_1 (cmpf (F := F) .ogt (broadcastInDim S100000x1 ![0] bcast_S100000_S100000x1_0 (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32)))) (broadcastInDim S100000x1 ![] bcast_S_S100000x1 (constant S_ .f32 0x00000000#32)))) (Host.divf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 dst) (Host.gather gather_S100000x64_S1600000x1_S1600000x64_1_0_n_n_0_1_164 wh (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x64 ![0, 1] bcast_S100000x1_S100000x64_0_1 (maximumf (broadcastInDim S100000x1 ![0] bcast_S100000_S100000x1_0 (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32)))) (broadcastInDim S100000x1 ![] bcast_S_S100000x1 (constant S_ .f32 0x3F800000#32))))) (broadcastInDim S100000x64 ![] bcast_S_S100000x64 (id (constant S_ .f32 0x00000000#32)))

/-- The layer: the three edge types' means, summed. -/
def layer (x : (⟨S100000x64, .f32⟩ : BufTy).Contents (Elt F))
    (w0 : (⟨S64x64, .f32⟩ : BufTy).Contents (Elt F)) (b0 : (⟨S64, .f32⟩ : BufTy).Contents (Elt F))
    (w1 : (⟨S64x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F))
    (s0 d0 s1 d1 s2 d2 : (⟨S1600000, .i32⟩ : BufTy).Contents (Elt F)) : (⟨S100000x64, .f32⟩ : BufTy).Contents (Elt F) :=
  addf (addf (edgeMean (project x w0 b0) s0 d0) (edgeMean (project x w1 b1) s1 d1)) (edgeMean (project x w2 b2) s2 d2)

end Cert.ReferenceIdeal.Layer

end
-- ==== Proof.ProjectEntry.lean ====
/-
  The reference's projection read at one entry: row `r`, column `j` of `x · W + b` is
  `∑ₖ x[r, k] · W[k, j] + b[j]` on the extended reals — the host's `dot_general` at the ideal instance is that sum, the two
  broadcasts of the bias (a row vector, then repeated down the rows) read `b` at the column.
-/
import proofs.«161949_j44727789420554_1_alg».proof.Proof.MeanLayer
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Gen Idealize.ShloMosaic Idealize.ShloMosaic.TcCoe Idealize.SL.Sem

/-- Entry `[r, k]` of the feature table, for the output entry `i = [r, j]`. -/
abbrev featIdx (i : S100000x64.Idx) (k : Fin 64) : S100000x64.Idx := fun a => match a with
  | ⟨0, _⟩ => ⟨(i 0).val, (i 0).isLt⟩
  | ⟨1, _⟩ => ⟨k.val, k.isLt⟩
/-- Entry `[k, j]` of a weight matrix. -/
abbrev weightIdx (i : S100000x64.Idx) (k : Fin 64) : S64x64.Idx := fun a => match a with
  | ⟨0, _⟩ => ⟨k.val, k.isLt⟩
  | ⟨1, _⟩ => ⟨(i 1).val, (i 1).isLt⟩
/-- Entry `[j]` of a bias vector. -/
abbrev biasIdx (i : S100000x64.Idx) : S64.Idx := fun a => match a with
  | ⟨0, _⟩ => ⟨(i 1).val, (i 1).isLt⟩
/-- Entry `[0, j]` of the bias as a row. -/
abbrev biasRowIdx (i : S100000x64.Idx) : S1x64.Idx := fun a => match a with
  | ⟨0, _⟩ => ⟨0, Nat.one_pos⟩
  | ⟨1, _⟩ => ⟨(i 1).val, (i 1).isLt⟩

theorem lhs_row (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs_contr (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem rhs_contr (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem rhs_col (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The host's matrix product at an entry is the sum over the contracted axis. -/
theorem dot_apply (x : (⟨S100000x64, .f32⟩ : BufTy).Contents (Elt Ideal)) (w : (⟨S64x64, .f32⟩ : BufTy).Contents (Elt Ideal)) (i : S100000x64.Idx) :
    Host.dotGeneral (F := Ideal) (φ₁ := .f32) (φ₂ := .f32) dot_S100000x64_S64x64_S100000x64_1_0_0_1_n_n none x w i = ∑ k : Fin 64, x (featIdx i k) * w (weightIdx i k) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = featIdx i k := funext fun a => Fin.ext (by
    match a with
    | ⟨0, _⟩ => exact lhs_row _ _
    | ⟨1, _⟩ => exact (lhs_contr _ _).trans hk)
  have er : dot_S100000x64_S64x64_S100000x64_1_0_0_1_n_n.rhsIdx i ((ValueIdx.contrEquiv1 dot_S100000x64_S64x64_S100000x64_1_0_0_1_n_n 64 rfl rfl).symm k) = weightIdx i k := funext fun a => Fin.ext (by
    match a with
    | ⟨0, _⟩ => exact (rhs_contr _ _).trans hk
    | ⟨1, _⟩ => exact rhs_col _ _)
  rw [el, er]

/-- The bias, made a row and repeated down the rows, read at an entry is the bias at the column. -/
theorem bias_apply (b : (⟨S64, .f32⟩ : BufTy).Contents (Elt Ideal)) (i : S100000x64.Idx) :
    broadcastInDim S100000x64 ![0, 1] bcast_S1x64_S100000x64_0_1 (broadcastInDim S1x64 ![1] bcast_S64_S1x64_1 b) i = b (biasIdx i) := by
  rw [broadcastInDim_apply _ bcast_S1x64_S100000x64_0_1 _ i (biasRowIdx i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  exact broadcastInDim_apply _ bcast_S64_S1x64_1 b (biasRowIdx i) (biasIdx i) (fun a => match a with
    | ⟨0, _⟩ => by show (i 1).val = if (64 : Nat) = 1 then 0 else (i 1).val; rw [if_neg (by decide)])

/-- `(x · W + b)[r, j] = ∑ₖ x[r, k] · W[k, j] + b[j]`. -/
theorem project_apply (x : (⟨S100000x64, .f32⟩ : BufTy).Contents (Elt Ideal)) (w : (⟨S64x64, .f32⟩ : BufTy).Contents (Elt Ideal))
    (b : (⟨S64, .f32⟩ : BufTy).Contents (Elt Ideal)) (i : S100000x64.Idx) :
    project (F := Ideal) x w b i = (∑ k : Fin 64, x (featIdx i k) * w (weightIdx i k)) + b (biasIdx i) := by
  unfold project
  rw [ValueIdx.addf_apply, dot_apply, bias_apply]

end Cert.ReferenceIdeal.Layer

end
-- ==== Proof.RegionValue.lean ====
/-
  What the region of `KernelIdeal` leaves in its three output arrays, at the ideal instance. Grid point `t` (of ten)
  handles rows `10000·t … 10000·t + 9999`: its block of output `e` is those rows, every weight matrix and bias row is
  staged whole. Entry `[p, j]` of what point `t` writes back is `∑ₖ x[10000·t + p, k] · W_e[k, j] + b_e[j]`, which is entry
  `[10000·t + p, j]` of the reference's projection `x · W_e + b_e`; the ten blocks tile the array (row `r` lies in the
  block of point `r / 10000`), so each output array ends at that projection, whole.
-/
import proofs.«161949_j44727789420554_1_alg».proof.Proof.LaunchIdeal
import proofs.«161949_j44727789420554_1_alg».proof.Proof.BlockEntry
import proofs.«161949_j44727789420554_1_alg».proof.Proof.ProjectEntry
import Idealize.ShloMosaic.Lib.StableHlo.Run

set_option maxRecDepth 16384

noncomputable section

namespace Cert.KernelIdeal.Around

open Idealize.ShloMosaic Idealize.ShloMosaic.TcCoe
open Idealize.SL Idealize.SL.Sem
open Idealize.ShloMosaic.Pipeline (Dat Cfg Window cellOf)
open Cert.KernelIdeal Cert.KernelIdeal.Gen Cert.KernelIdeal.BlockValue

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: the row block and the three outputs move with the point along the
    rows; the weight matrices and the bias rows stay at block 0. -/
theorem idx_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0 :=
  (by decide +kernel : ∀ t : Fin grid0.N, _)

/-! ## Output 0: `x · W0 + b0` -/

/-- The bias row the region finds: the launch bias vector, reshaped to one row. -/
theorem biasRow0 (c : Dev nD) : (V m c main_v0 : S1x64.Idx → Elt Ideal .f32) = shapeCast S1x64 (m ((c.tc : Thread nD τ).loc main_arg2)) shapeCasts_S64_S1x64 := by
  show StableHlo.after hostOps0 (fun b => m (c, b)) (Proc.devRef .tc main_v0) = _
  after_results
  rfl

/-- Its entry `[0, j]` is the vector's entry `[j]`. -/
theorem biasRow0_entry (c : Dev nD) (y : S10000x64.Idx) (i : Cert.ReferenceIdeal.S100000x64.Idx) (hi : (i 1).val = (y 1).val) :
    V m c main_v0 (rowIdx y) = (m ((c.tc : Thread nD τ).loc main_arg2)) (Cert.ReferenceIdeal.Layer.biasIdx i) := by
  rw [biasRow0]
  refine shapeCast_apply _ shapeCasts_S64_S1x64 (rowIdx y) (Cert.ReferenceIdeal.Layer.biasIdx i) ?_
  rw [Shape.rowMajor_val_one, Shape.rowMajor_val_two]
  show (i 1).val = 0 * 64 + (y 1).val
  omega

/-- What point `t` writes back of output 0 is block `t` of the projection of the launch arrays. -/
theorem flushed7_eq (c : Dev nD) (t : Fin cfg0.N) :
    (dats m 0 c).flushed 7 t = ((cfg0.win 7).blk t).view.read (Elt Ideal)
      (Cert.ReferenceIdeal.Layer.project (F := Ideal) (m ((c.tc : Thread nD τ).loc main_arg0)) (m ((c.tc : Thread nD τ).loc main_arg1)) (m ((c.tc : Thread nD τ).loc main_arg2))) := by
  show (cfg0.win 7).cut (grid0.coords t) ((dats m 0 c).after 7 t) = _
  rw [after_7]
  unfold proj0
  rw [View.canon_unit_zero hz]
  simp only [View.ld_unit_zero (S := S10000x64) hz, View.ld_unit_zero (S := S64x64) hz, View.ld_unit_zero (S := S1x64) hz]

  obtain ⟨f0, f1, f2, f3, f4, f5, f6, f7, f8, f9, f10, f11, f12, f13, f14, f15, f16, f17, f18, f19⟩ := idx_facts t
  suffices key : ∀ y : S10000x64.Idx, k0_pay2 (F := Ideal) (iblk m c 0 t) (iblk m c 1 t) (iblk m c 2 t) y
      = Cert.ReferenceIdeal.Layer.project (F := Ideal) (m ((c.tc : Thread nD τ).loc main_arg0)) (m ((c.tc : Thread nD τ).loc main_arg1)) (m ((c.tc : Thread nD τ).loc main_arg2)) (((cfg0.win 7).blk t).view.emb y) from funext fun y => key y
  intro y
  refine (pay_apply _ _ _ y).trans ?_
  refine Eq.trans ?_ (Cert.ReferenceIdeal.Layer.project_apply _ _ _ _).symm
  have hx : ∀ k : Fin 64, iblk m c 0 t (rowsIdx y k) = (m ((c.tc : Thread nD τ).loc main_arg0)) (Cert.ReferenceIdeal.Layer.featIdx (((cfg0.win 7).blk t).view.emb y) k) := fun k => by
    show V m c main_arg0 (((cfg0.win 0).blk t).view.emb (rowsIdx y k)) = _
    rw [V_of_not_written m c main_arg0 (by decide)]
    refine congrArg _ (funext fun a => Fin.ext ?_)
    match a with
    | ⟨0, _⟩ => show win0_0.index t (0 : Fin 2) * 10000 + 1 * (y 0).val = win0_7.index t (0 : Fin 2) * 10000 + 1 * (y 0).val; omega
    | ⟨1, _⟩ => show win0_0.index t (1 : Fin 2) * 64 + 1 * k.val = k.val; omega
  have hw : ∀ k : Fin 64, iblk m c 1 t (matIdx y k) = (m ((c.tc : Thread nD τ).loc main_arg1)) (Cert.ReferenceIdeal.Layer.weightIdx (((cfg0.win 7).blk t).view.emb y) k) := fun k => by
    show V m c main_arg1 (((cfg0.win 1).blk t).view.emb (matIdx y k)) = _
    rw [V_of_not_written m c main_arg1 (by decide)]
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * (y 1).val = win0_7.index t (1 : Fin 2) * 64 + 1 * (y 1).val; omega
  have hb : iblk m c 2 t (rowIdx y) = (m ((c.tc : Thread nD τ).loc main_arg2)) (Cert.ReferenceIdeal.Layer.biasIdx (((cfg0.win 7).blk t).view.emb y)) := by
    show V m c main_v0 (((cfg0.win 2).blk t).view.emb (rowIdx y)) = _
    have he : ((cfg0.win 2).blk t).view.emb (rowIdx y) = rowIdx y := funext fun a => Fin.ext (by
      match a with
      | ⟨0, _⟩ => show win0_2.index t (0 : Fin 2) * 1 + 1 * 0 = 0; omega
      | ⟨1, _⟩ => show win0_2.index t (1 : Fin 2) * 64 + 1 * (y 1).val = (y 1).val; omega)
    rw [he]
    refine biasRow0_entry m c y _ ?_
    show win0_7.index t (1 : Fin 2) * 64 + 1 * (y 1).val = (y 1).val
    omega
  exact congrArg₂ (· + ·) (Finset.sum_congr rfl fun k _ => congrArg₂ (· * ·) (hx k) (hw k)) hb

/-- An entry of output 0's array is in point `t`'s block iff its row is one of the block's 10000 rows. -/
theorem mem_blk7 (t : Fin cfg0.N) (i : S100000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_v3_0).slice (win0_7.rect t)).set ↔ _
  rw [View.set_slice_whole, Rect.mem_set_unit]
  exact Iff.rfl

/-- Every entry is in the block of the point its row falls in. -/
theorem cover7 (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  let t : Fin cfg0.N := ⟨(i 0).val / 10000, by show (i 0).val / 10000 < grid0.N; rw [N_0]; omega⟩
  obtain ⟨f0, f1, f2, f3, f4, f5, f6, f7, f8, f9, f10, f11, f12, f13, f14, f15, f16, f17, f18, f19⟩ := idx_facts t
  refine ⟨t, flush0_7 t, ?_⟩
  rw [mem_blk7]
  have ht : t.val = (i 0).val / 10000 := rfl
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 64 ≤ (i 1).val ∧ (i 1).val < win0_7.index t (1 : Fin 2) * 64 + 64; omega

/-- Output 0's array after the region: the projection, whole. -/
theorem final7 (c : Dev nD) : (dats m 0 c).arrAt 7 cfg0.N = Cert.ReferenceIdeal.Layer.project (F := Ideal) (m ((c.tc : Thread nD τ).loc main_arg0)) (m ((c.tc : Thread nD τ).loc main_arg1)) (m ((c.tc : Thread nD τ).loc main_arg2)) :=
  (dats m 0 c).arrAt_eq_of_cover 7 _ (fun t _ => flushed7_eq m c t) cover7

/-! ## Output 1: `x · W1 + b1` -/

/-- The bias row the region finds: the launch bias vector, reshaped to one row. -/
theorem biasRow1 (c : Dev nD) : (V m c main_v1 : S1x64.Idx → Elt Ideal .f32) = shapeCast S1x64 (m ((c.tc : Thread nD τ).loc main_arg4)) shapeCasts_S64_S1x64 := by
  show StableHlo.after hostOps0 (fun b => m (c, b)) (Proc.devRef .tc main_v1) = _
  after_results
  rfl

/-- Its entry `[0, j]` is the vector's entry `[j]`. -/
theorem biasRow1_entry (c : Dev nD) (y : S10000x64.Idx) (i : Cert.ReferenceIdeal.S100000x64.Idx) (hi : (i 1).val = (y 1).val) :
    V m c main_v1 (rowIdx y) = (m ((c.tc : Thread nD τ).loc main_arg4)) (Cert.ReferenceIdeal.Layer.biasIdx i) := by
  rw [biasRow1]
  refine shapeCast_apply _ shapeCasts_S64_S1x64 (rowIdx y) (Cert.ReferenceIdeal.Layer.biasIdx i) ?_
  rw [Shape.rowMajor_val_one, Shape.rowMajor_val_two]
  show (i 1).val = 0 * 64 + (y 1).val
  omega

/-- What point `t` writes back of output 1 is block `t` of the projection of the launch arrays. -/
theorem flushed8_eq (c : Dev nD) (t : Fin cfg0.N) :
    (dats m 0 c).flushed 8 t = ((cfg0.win 8).blk t).view.read (Elt Ideal)
      (Cert.ReferenceIdeal.Layer.project (F := Ideal) (m ((c.tc : Thread nD τ).loc main_arg0)) (m ((c.tc : Thread nD τ).loc main_arg3)) (m ((c.tc : Thread nD τ).loc main_arg4))) := by
  show (cfg0.win 8).cut (grid0.coords t) ((dats m 0 c).after 8 t) = _
  rw [after_8]
  unfold proj1
  rw [View.canon_unit_zero hz]
  simp only [View.ld_unit_zero (S := S10000x64) hz, View.ld_unit_zero (S := S64x64) hz, View.ld_unit_zero (S := S1x64) hz]
  rw [pay3_eq]
  obtain ⟨f0, f1, f2, f3, f4, f5, f6, f7, f8, f9, f10, f11, f12, f13, f14, f15, f16, f17, f18, f19⟩ := idx_facts t
  suffices key : ∀ y : S10000x64.Idx, k0_pay2 (F := Ideal) (iblk m c 0 t) (iblk m c 3 t) (iblk m c 4 t) y
      = Cert.ReferenceIdeal.Layer.project (F := Ideal) (m ((c.tc : Thread nD τ).loc main_arg0)) (m ((c.tc : Thread nD τ).loc main_arg3)) (m ((c.tc : Thread nD τ).loc main_arg4)) (((cfg0.win 8).blk t).view.emb y) from funext fun y => key y
  intro y
  refine (pay_apply _ _ _ y).trans ?_
  refine Eq.trans ?_ (Cert.ReferenceIdeal.Layer.project_apply _ _ _ _).symm
  have hx : ∀ k : Fin 64, iblk m c 0 t (rowsIdx y k) = (m ((c.tc : Thread nD τ).loc main_arg0)) (Cert.ReferenceIdeal.Layer.featIdx (((cfg0.win 8).blk t).view.emb y) k) := fun k => by
    show V m c main_arg0 (((cfg0.win 0).blk t).view.emb (rowsIdx y k)) = _
    rw [V_of_not_written m c main_arg0 (by decide)]
    refine congrArg _ (funext fun a => Fin.ext ?_)
    match a with
    | ⟨0, _⟩ => show win0_0.index t (0 : Fin 2) * 10000 + 1 * (y 0).val = win0_8.index t (0 : Fin 2) * 10000 + 1 * (y 0).val; omega
    | ⟨1, _⟩ => show win0_0.index t (1 : Fin 2) * 64 + 1 * k.val = k.val; omega
  have hw : ∀ k : Fin 64, iblk m c 3 t (matIdx y k) = (m ((c.tc : Thread nD τ).loc main_arg3)) (Cert.ReferenceIdeal.Layer.weightIdx (((cfg0.win 8).blk t).view.emb y) k) := fun k => by
    show V m c main_arg3 (((cfg0.win 3).blk t).view.emb (matIdx y k)) = _
    rw [V_of_not_written m c main_arg3 (by decide)]
    refine congrArg _ (funext fun a => Fin.ext ?_)
    match a with
    | ⟨0, _⟩ => show win0_3.index t (0 : Fin 2) * 64 + 1 * k.val = k.val; omega
    | ⟨1, _⟩ => show win0_3.index t (1 : Fin 2) * 64 + 1 * (y 1).val = win0_8.index t (1 : Fin 2) * 64 + 1 * (y 1).val; omega
  have hb : iblk m c 4 t (rowIdx y) = (m ((c.tc : Thread nD τ).loc main_arg4)) (Cert.ReferenceIdeal.Layer.biasIdx (((cfg0.win 8).blk t).view.emb y)) := by
    show V m c main_v1 (((cfg0.win 4).blk t).view.emb (rowIdx y)) = _
    have he : ((cfg0.win 4).blk t).view.emb (rowIdx y) = rowIdx y := funext fun a => Fin.ext (by
      match a with
      | ⟨0, _⟩ => show win0_4.index t (0 : Fin 2) * 1 + 1 * 0 = 0; omega
      | ⟨1, _⟩ => show win0_4.index t (1 : Fin 2) * 64 + 1 * (y 1).val = (y 1).val; omega)
    rw [he]
    refine biasRow1_entry m c y _ ?_
    show win0_8.index t (1 : Fin 2) * 64 + 1 * (y 1).val = (y 1).val
    omega
  exact congrArg₂ (· + ·) (Finset.sum_congr rfl fun k _ => congrArg₂ (· * ·) (hx k) (hw k)) hb

/-- An entry of output 1's array is in point `t`'s block iff its row is one of the block's 10000 rows. -/
theorem mem_blk8 (t : Fin cfg0.N) (i : S100000x64.Idx) :
    i ∈ ((cfg0.win 8).blk t).view.set ↔ ∀ a : Fin 2, win0_8.index t a * S10000x64.size a ≤ (i a).val ∧ (i a).val < win0_8.index t a * S10000x64.size a + S10000x64.size a := by
  show i ∈ ((View.whole main_v3_1).slice (win0_8.rect t)).set ↔ _
  rw [View.set_slice_whole, Rect.mem_set_unit]
  exact Iff.rfl

/-- Every entry is in the block of the point its row falls in. -/
theorem cover8 (i : S100000x64.Idx) : ∃ t : Fin cfg0.N, (cfg0.win 8).flush t = true ∧ i ∈ ((cfg0.win 8).blk t).view.set := by
  have hi0 : (i 0).val < 100000 := (i 0).isLt
  have hi1 : (i 1).val < 64 := (i 1).isLt
  let t : Fin cfg0.N := ⟨(i 0).val / 10000, by show (i 0).val / 10000 < grid0.N; rw [N_0]; omega⟩
  obtain ⟨f0, f1, f2, f3, f4, f5, f6, f7, f8, f9, f10, f11, f12, f13, f14, f15, f16, f17, f18, f19⟩ := idx_facts t
  refine ⟨t, flush0_8 t, ?_⟩
  rw [mem_blk8]
  have ht : t.val = (i 0).val / 10000 := rfl
  intro a
  match a with
  | ⟨0, _⟩ => show win0_8.index t (0 : Fin 2) * 10000 ≤ (i 0).val ∧ (i 0).val < win0_8.index t (0 : Fin 2) * 10000 + 10000; omega
  | ⟨1, _⟩ => show win0_8.index t (1 : Fin 2) * 64 ≤ (i 1).val ∧ (i 1).val < win0_8.index t (1 : Fin 2) * 64 + 64; omega

/-- Output 1's array after the region: the projection, whole. -/
theorem final8 (c : Dev nD) : (dats m 0 c).arrAt 8 cfg0.N = Cert.ReferenceIdeal.Layer.project (F := Ideal) (m ((c.tc : Thread nD τ).loc main_arg0)) (m ((c.tc : Thread nD τ).loc main_arg3)) (m ((c.tc : Thread nD τ).loc main_arg4)) :=
  (dats m 0 c).arrAt_eq_of_cover 8 _ (fun t _ => flushed8_eq m c t) cover8

/-! ## Output 2: `x · W2 + b2` -/

/-- The bias row the region finds: the launch bias vector, reshaped to one row. -/
theorem biasRow2 (c : Dev nD) : (V m c main_v2 : S1x64.Idx → Elt Ideal .f32) = shapeCast S1x64 (m ((c.tc : Thread nD τ).loc main_arg6)) shapeCasts_S64_S1x64 := by
  show StableHlo.after hostOps0 (fun b => m (c, b)) (Proc.devRef .tc main_v2) = _
  after_results
  rfl

/-- Its entry `[0, j]` is the vector's entry `[j]`. -/
theorem biasRow2_entry (c : Dev nD) (y : S10000x64.Idx) (i : Cert.ReferenceIdeal.S100000x64.Idx) (hi : (i 1).val = (y 1).val) :
    V m c main_v2 (rowIdx y) = (m ((c.tc : Thread nD τ).loc main_arg6)) (Cert.ReferenceIdeal.Layer.biasIdx i) := by
  rw [biasRow2]
  refine shapeCast_apply _ shapeCasts_S64_S1x64 (rowIdx y) (Cert.ReferenceIdeal.Layer.biasIdx i) ?_
  rw [Shape.rowMajor_val_one, Shape.rowMajor_val_two]
  show (i 1).val = 0 * 64 + (y 1).val
  omega

/-- What point `t` writes back of output 2 is block `t` of the projection of the launch arrays. -/
theorem flushed9_eq (c : Dev nD) (t : Fin cfg0.N) :
    (dats m 0 c).flushed 9 t = ((cfg0.win 9).blk t).view.read (Elt Ideal)
      (Cert.ReferenceIdeal.Layer.project (F := Ideal) (m ((c.tc : Thread nD τ).loc main_arg0)) (m ((c.tc : Thread nD τ).loc main_arg5)) (m ((c.tc : Thread nD τ).loc main_arg6))) := by
  show (cfg0.win 9).cut (grid0.coords t) ((dats m 0 c).after 9 t) = _
  rw [after_9]
  unfold proj2
  rw [View.canon_unit_zero hz]
  simp only [View.ld_unit_zero (S := S10000x64) hz, View.ld_unit_zero (S := S64x64) hz, View.ld_unit_zero (S := S1x64) hz]
  rw [pay4_eq]
  obtain ⟨f0, f1, f2, f3, f4, f5, f6, f7, f8, f9, f10, f11, f12, f13, f14, f15, f16, f17, f18, f19⟩ := idx_facts t
  suffices key : ∀ y : S10000x64.Idx, k0_pay2 (F := Ideal) (iblk m c 0 t) (iblk m c 5 t) (iblk m c 6 t) y
      = Cert.ReferenceIdeal.Layer.project (F := Ideal) (m ((c.tc : Thread nD τ).loc main_arg0)) (m ((c.tc : Thread nD τ).loc main_arg5)) (m ((c.tc : Thread nD τ).loc main_arg6)) (((cfg0.win 9).blk t).view.emb y) from funext fun y => key y
  intro y
  refine (pay_apply _ _ _ y).trans ?_
  refine Eq.trans ?_ (Cert.ReferenceIdeal.Layer.project_apply _ _ _ _).symm
  have hx : ∀ k : Fin 64, iblk m c 0 t (rowsIdx y k) = (m ((c.tc : Thread nD τ).loc main_arg0)) (Cert.ReferenceIdeal.Layer.featIdx (((cfg0.win 9).blk t).view.emb y) k) := fun k => by
    show V m c main_arg0 (((cfg0.win 0).blk t).view.emb (rowsIdx y k)) = _
    rw [V_of_not_written m c main_arg0 (by decide)]
    refine congrArg _ (funext fun a => Fin.ext ?_)
    match a with
    | ⟨0, _⟩ => show win0_0.index t (0 : Fin 2) * 10000 + 1 * (y 0).val = win0_9.index t (0 : Fin 2) * 10000 + 1 * (y 0).val; omega
    | ⟨1, _⟩ => show win0_0.index t (1 : Fin 2) * 64 + 1 * k.val = k.val; omega
  have hw : ∀ k : Fin 64, iblk m c 5 t (matIdx y k) = (m ((c.tc : Thread nD τ).loc main_arg5)) (Cert.ReferenceIdeal.Layer.weightIdx (((cfg0.win 9).blk t).view.emb y) k) := fun k => by
    show V m c main_arg5 (((cfg0.win 5).blk t).view.emb (matIdx y k)) = _
    rw [V_of_not_written m c main_arg5 (by decide)]
    refine congrArg _ (funext fun a => Fin.ext ?_)
    match a with
    | ⟨0, _⟩ => show win0_5.index t (0 : Fin 2) * 64 + 1 * k.val = k.val; omega
    | ⟨1, _⟩ => show win0_5.index t (1 : Fin 2) * 64 + 1 * (y 1).val = win0_9.index t (1 : Fin 2) * 64 + 1 * (y 1).val; omega
  have hb : iblk m c 6 t (rowIdx y) = (m ((c.tc : Thread nD τ).loc main_arg6)) (Cert.ReferenceIdeal.Layer.biasIdx (((cfg0.win 9).blk t).view.emb y)) := by
    show V m c main_v2 (((cfg0.win 6).blk t).view.emb (rowIdx y)) = _
    have he : ((cfg0.win 6).blk t).view.emb (rowIdx y) = rowIdx y := funext fun a => Fin.ext (by
      match a with
      | ⟨0, _⟩ => show win0_6.index t (0 : Fin 2) * 1 + 1 * 0 = 0; omega
      | ⟨1, _⟩ => show win0_6.index t (1 : Fin 2) * 64 + 1 * (y 1).val = (y 1).val; omega)
    rw [he]
    refine biasRow2_entry m c y _ ?_
    show win0_9.index t (1 : Fin 2) * 64 + 1 * (y 1).val = (y 1).val
    omega
  exact congrArg₂ (· + ·) (Finset.sum_congr rfl fun k _ => congrArg₂ (· * ·) (hx k) (hw k)) hb

/-- An entry of output 2's array is in point `t`'s block iff its row is one of the block's 10000 rows. -/
theorem mem_blk9 (t : Fin cfg0.N) (i : S100000x64.Idx) :
    i ∈ ((cfg0.win 9).blk t).view.set ↔ ∀ a : Fin 2, win0_9.index t a * S10000x64.size a ≤ (i a).val ∧ (i a).val < win0_9.index t a * S10000x64.size a + S10000x64.size a := by
  show i ∈ ((View.whole main_v3_2).slice (win0_9.rect t)).set ↔ _
  rw [View.set_slice_whole, Rect.mem_set_unit]
  exact Iff.rfl

/-- Every entry is in the block of the point its row falls in. -/
theorem cover9 (i : S100000x64.Idx) : ∃ t : Fin cfg0.N, (cfg0.win 9).flush t = true ∧ i ∈ ((cfg0.win 9).blk t).view.set := by
  have hi0 : (i 0).val < 100000 := (i 0).isLt
  have hi1 : (i 1).val < 64 := (i 1).isLt
  let t : Fin cfg0.N := ⟨(i 0).val / 10000, by show (i 0).val / 10000 < grid0.N; rw [N_0]; omega⟩
  obtain ⟨f0, f1, f2, f3, f4, f5, f6, f7, f8, f9, f10, f11, f12, f13, f14, f15, f16, f17, f18, f19⟩ := idx_facts t
  refine ⟨t, flush0_9 t, ?_⟩
  rw [mem_blk9]
  have ht : t.val = (i 0).val / 10000 := rfl
  intro a
  match a with
  | ⟨0, _⟩ => show win0_9.index t (0 : Fin 2) * 10000 ≤ (i 0).val ∧ (i 0).val < win0_9.index t (0 : Fin 2) * 10000 + 10000; omega
  | ⟨1, _⟩ => show win0_9.index t (1 : Fin 2) * 64 ≤ (i 1).val ∧ (i 1).val < win0_9.index t (1 : Fin 2) * 64 + 64; omega

/-- Output 2's array after the region: the projection, whole. -/
theorem final9 (c : Dev nD) : (dats m 0 c).arrAt 9 cfg0.N = Cert.ReferenceIdeal.Layer.project (F := Ideal) (m ((c.tc : Thread nD τ).loc main_arg0)) (m ((c.tc : Thread nD τ).loc main_arg5)) (m ((c.tc : Thread nD τ).loc main_arg6)) :=
  (dats m 0 c).arrAt_eq_of_cover 9 _ (fun t _ => flushed9_eq m c t) cover9

end Cert.KernelIdeal.Around

end
-- ==== Proof.TailValue.lean ====
/-
  The host lines after the region, read as one function: whatever the buffers hold when those 101 lines start (`Vv`),
  the result buffer ends at the sum over the three edge types of the mean aggregation (`edgeMean`) of that edge type's
  projected table (the region's three output arrays) along its source and destination index arrays. The lines are the
  reference's own aggregation lines, operation for operation, so this is the lines' results composed and then `edgeMean`
  unfolded.
-/
import proofs.«161949_j44727789420554_1_alg».proof.Proof.HostLinesIdeal
import proofs.«161949_j44727789420554_1_alg».proof.Proof.MeanLayer
import Idealize.ShloMosaic.Lib.StableHlo.Run

noncomputable section

namespace Cert.KernelIdeal.Around

open Idealize.ShloMosaic Idealize.ShloMosaic.TcCoe Idealize.ShloMosaic.StableHlo
open Idealize.SL Idealize.SL.Sem
open Cert.KernelIdeal Cert.KernelIdeal.Gen

variable {F : FTy → Type} [FloatOps F]

set_option maxRecDepth 16384 in
set_option maxHeartbeats 40000000 in
theorem tail_after (Vv : Valuation τ sig (Elt F)) :
    StableHlo.after ((tailOps (F := F)).flatten) Vv (Proc.devRef .tc main_v71)
      = addf (addf (Cert.ReferenceIdeal.Layer.edgeMean (F := F) (Vv (Proc.devRef .tc main_v3_0)) (Vv (Proc.devRef .tc main_arg7)) (Vv (Proc.devRef .tc main_arg8)))
                   (Cert.ReferenceIdeal.Layer.edgeMean (F := F) (Vv (Proc.devRef .tc main_v3_1)) (Vv (Proc.devRef .tc main_arg9)) (Vv (Proc.devRef .tc main_arg10))))
             (Cert.ReferenceIdeal.Layer.edgeMean (F := F) (Vv (Proc.devRef .tc main_v3_2)) (Vv (Proc.devRef .tc main_arg11)) (Vv (Proc.devRef .tc main_arg12))) := by
  simp only [tailOps, hostOps1, hostOps1_1, hostOps1_2, hostOps1_3, hostOps1_4, hostOps1_5, hostOps1_6,
    List.flatten_cons, List.flatten_nil, List.append_nil, List.cons_append, List.nil_append]
  after_results_simp
  all_goals (unfold Cert.ReferenceIdeal.Layer.edgeMean; rfl)

end Cert.KernelIdeal.Around

end
-- ==== Proof.KernelRun.lean ====
/-
  The idealized kernel's run, with its result named: after the region each output array is the projection
  `x · W_e + b_e` of the launch arrays, no later line writes those arrays or an argument before they are read, so the
  result buffer ends at `layer` of the thirteen launch arrays — the same function the reference's run ends at.
-/
import proofs.«161949_j44727789420554_1_alg».proof.Proof.RegionValue
import proofs.«161949_j44727789420554_1_alg».proof.Proof.TailValue

set_option maxRecDepth 16384

noncomputable section

namespace Cert.KernelIdeal.Around

open Idealize.ShloMosaic Idealize.ShloMosaic.TcCoe
open Idealize.SL Idealize.SL.Sem
open Idealize.ShloMosaic.Pipeline (Dat Cfg Window cellOf)
open Cert.KernelIdeal Cert.KernelIdeal.Gen

variable (m : (ℓ : Loc nD τ sig) → Buf (Elt Ideal) ℓ) (ρ : Dev nD → PrngReg)

/-- `edgeMean` of equal tables along equal index arrays. -/
theorem edgeMean_congr {wh wh' : (⟨Cert.ReferenceIdeal.S100000x64, .f32⟩ : BufTy).Contents (Elt Ideal)}
    {s s' d d' : (⟨Cert.ReferenceIdeal.S1600000, .i32⟩ : BufTy).Contents (Elt Ideal)} (h1 : wh = wh') (h2 : s = s') (h3 : d = d') :
    Cert.ReferenceIdeal.Layer.edgeMean (F := Ideal) wh s d = Cert.ReferenceIdeal.Layer.edgeMean (F := Ideal) wh' s' d' := by
  rw [h1, h2, h3]

/-- The result buffer after the later lines, from the region's exit contents. -/
theorem tail_value (c : Dev nD) :
    Pipeline.afterTail₀ cfgs (dats m) 0 (V0 m) tailOps c main_v71
      = Cert.ReferenceIdeal.Layer.layer (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Pipeline.afterTail₀
  refine (tail_after _).trans ?_
  have h7 : Pipeline.withArrays spec0 c (V0 m c) (fun w => (dats m 0 c).arrAt w cfg0.N) (Proc.devRef .tc main_v3_0) = (dats m 0 c).arrAt 7 cfg0.N :=
    Pipeline.withArrays_arr spec0 launch0.win.arr_inj c _ _ 7
  have h8 : Pipeline.withArrays spec0 c (V0 m c) (fun w => (dats m 0 c).arrAt w cfg0.N) (Proc.devRef .tc main_v3_1) = (dats m 0 c).arrAt 8 cfg0.N :=
    Pipeline.withArrays_arr spec0 launch0.win.arr_inj c _ _ 8
  have h9 : Pipeline.withArrays spec0 c (V0 m c) (fun w => (dats m 0 c).arrAt w cfg0.N) (Proc.devRef .tc main_v3_2) = (dats m 0 c).arrAt 9 cfg0.N :=
    Pipeline.withArrays_arr spec0 launch0.win.arr_inj c _ _ 9
  have a7 : Pipeline.withArrays spec0 c (V0 m c) (fun w => (dats m 0 c).arrAt w cfg0.N) (Proc.devRef .tc main_arg7) = (m ((c.tc : Thread nD τ).loc main_arg7)) :=
    (Pipeline.withArrays_of_ne _ c (V0 m c) _ main_arg7 (by decide)).trans (V_of_not_written m c main_arg7 (by decide))
  have a8 : Pipeline.withArrays spec0 c (V0 m c) (fun w => (dats m 0 c).arrAt w cfg0.N) (Proc.devRef .tc main_arg8) = (m ((c.tc : Thread nD τ).loc main_arg8)) :=
    (Pipeline.withArrays_of_ne _ c (V0 m c) _ main_arg8 (by decide)).trans (V_of_not_written m c main_arg8 (by decide))
  have a9 : Pipeline.withArrays spec0 c (V0 m c) (fun w => (dats m 0 c).arrAt w cfg0.N) (Proc.devRef .tc main_arg9) = (m ((c.tc : Thread nD τ).loc main_arg9)) :=
    (Pipeline.withArrays_of_ne _ c (V0 m c) _ main_arg9 (by decide)).trans (V_of_not_written m c main_arg9 (by decide))
  have a10 : Pipeline.withArrays spec0 c (V0 m c) (fun w => (dats m 0 c).arrAt w cfg0.N) (Proc.devRef .tc main_arg10) = (m ((c.tc : Thread nD τ).loc main_arg10)) :=
    (Pipeline.withArrays_of_ne _ c (V0 m c) _ main_arg10 (by decide)).trans (V_of_not_written m c main_arg10 (by decide))
  have a11 : Pipeline.withArrays spec0 c (V0 m c) (fun w => (dats m 0 c).arrAt w cfg0.N) (Proc.devRef .tc main_arg11) = (m ((c.tc : Thread nD τ).loc main_arg11)) :=
    (Pipeline.withArrays_of_ne _ c (V0 m c) _ main_arg11 (by decide)).trans (V_of_not_written m c main_arg11 (by decide))
  have a12 : Pipeline.withArrays spec0 c (V0 m c) (fun w => (dats m 0 c).arrAt w cfg0.N) (Proc.devRef .tc main_arg12) = (m ((c.tc : Thread nD τ).loc main_arg12)) :=
    (Pipeline.withArrays_of_ne _ c (V0 m c) _ main_arg12 (by decide)).trans (V_of_not_written m c main_arg12 (by decide))
  unfold Cert.ReferenceIdeal.Layer.layer
  exact congrArg₂ addf
    (congrArg₂ addf (edgeMean_congr (h7.trans (final7 m c)) a7 a8) (edgeMean_congr (h8.trans (final8 m c)) a9 a10))
    (edgeMean_congr (h9.trans (final9 m c)) a11 a12)

/-- Every weakly fair execution of the idealized kernel's @main terminates with the result buffer at the layer of the
    launch arrays and the thirteen argument arrays as launched. -/
theorem run_value : θ_run defs (onTc (τ := τ) (main (F := Ideal))) ⟨m, fun _ => 0, ρ⟩ (fun r => ∀ c : Dev nD,
      r.2.mem ((c.tc : Thread nD τ).loc main_v71) = Cert.ReferenceIdeal.Layer.layer (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_v71 (Pipeline.mem_restRefs_of main_v71 (by decide) (by decide))).trans (tail_value m c),
      ((h c).1 0).trans ((((dats m 0 c).arrAt_in 0 rfl _).trans (A_eq m c 0)).trans (V_of_not_written m c main_arg0 (by decide))),
      ((h c).1 1).trans ((((dats m 0 c).arrAt_in 1 rfl _).trans (A_eq m c 1)).trans (V_of_not_written m c main_arg1 (by decide))),
      (((h c).2 main_arg2 (Pipeline.mem_restRefs_of main_arg2 (by decide) (by decide))).trans (tail_keeps m (dats m) c main_arg2 (by decide) (by decide))).trans (V_of_not_written m c main_arg2 (by decide)),
      ((h c).1 3).trans ((((dats m 0 c).arrAt_in 3 rfl _).trans (A_eq m c 3)).trans (V_of_not_written m c main_arg3 (by decide))),
      (((h c).2 main_arg4 (Pipeline.mem_restRefs_of main_arg4 (by decide) (by decide))).trans (tail_keeps m (dats m) c main_arg4 (by decide) (by decide))).trans (V_of_not_written m c main_arg4 (by decide)),
      ((h c).1 5).trans ((((dats m 0 c).arrAt_in 5 rfl _).trans (A_eq m c 5)).trans (V_of_not_written m c main_arg5 (by decide))),
      (((h c).2 main_arg6 (Pipeline.mem_restRefs_of main_arg6 (by decide) (by decide))).trans (tail_keeps m (dats m) c main_arg6 (by decide) (by decide))).trans (V_of_not_written m c main_arg6 (by decide)),
      (((h c).2 main_arg7 (Pipeline.mem_restRefs_of main_arg7 (by decide) (by decide))).trans (tail_keeps m (dats m) c main_arg7 (by decide) (by decide))).trans (V_of_not_written m c main_arg7 (by decide)),
      (((h c).2 main_arg8 (Pipeline.mem_restRefs_of main_arg8 (by decide) (by decide))).trans (tail_keeps m (dats m) c main_arg8 (by decide) (by decide))).trans (V_of_not_written m c main_arg8 (by decide)),
      (((h c).2 main_arg9 (Pipeline.mem_restRefs_of main_arg9 (by decide) (by decide))).trans (tail_keeps m (dats m) c main_arg9 (by decide) (by decide))).trans (V_of_not_written m c main_arg9 (by decide)),
      (((h c).2 main_arg10 (Pipeline.mem_restRefs_of main_arg10 (by decide) (by decide))).trans (tail_keeps m (dats m) c main_arg10 (by decide) (by decide))).trans (V_of_not_written m c main_arg10 (by decide)),
      (((h c).2 main_arg11 (Pipeline.mem_restRefs_of main_arg11 (by decide) (by decide))).trans (tail_keeps m (dats m) c main_arg11 (by decide) (by decide))).trans (V_of_not_written m c main_arg11 (by decide)),
      (((h c).2 main_arg12 (Pipeline.mem_restRefs_of main_arg12 (by decide) (by decide))).trans (tail_keeps m (dats m) c main_arg12 (by decide) (by decide))).trans (V_of_not_written m c main_arg12 (by decide))⟩) (run_main m ρ)

end Cert.KernelIdeal.Around

end
-- ==== Proof.ReferenceLayer.lean ====
/-
  The reference's run ends with its result array at the layer of its thirteen argument arrays: the run's composed term
  is, operation for operation, `layer` unfolded.
-/
import proofs.«161949_j44727789420554_1_alg».proof.Proof.RefRunPatched
import proofs.«161949_j44727789420554_1_alg».proof.Proof.MeanLayer

set_option maxRecDepth 8192

noncomputable section

namespace Cert.ReferenceIdeal.Layer

open Cert.ReferenceIdeal Cert.ReferenceIdeal.Gen Idealize.ShloMosaic Idealize.ShloMosaic.TcCoe Idealize.SL.Sem

variable {F : FTy → Type} [FloatOps F]

set_option maxHeartbeats 2000000 in
theorem res_eq_layer (m : (ℓ : Loc nD τ sig) → Buf (Elt F) ℓ) (c : Dev nD) :
    Cert.ReferenceIdeal.ValueP.res_main_v79 m c = layer (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.ValueP.res_main_v79 layer edgeMean project
  rfl

end Cert.ReferenceIdeal.Layer

end
-- ==== Proof.lean ====
/-
  A heterogeneous graph-convolution layer over three edge types, against its jnp reference.
  Both programs compute, for each edge type `e`, the projection `Wh_e = x · W_e + b_e` of the 100000 × 64 node features,
  gather `Wh_e` along the edges' source indices, sum the gathered rows onto the destination nodes, divide by the in-degree
  where it is positive (zero elsewhere), and add the three results. They differ only in how `Wh_e` is produced: the kernel
  computes it in a ten-point grid, 10000 rows at a time, on the matrix unit from operands rounded to bf16 with a zero
  accumulator and the bias row broadcast down the block; the reference by one `dot_general` and two broadcasts. At the
  ideal instance a rounding is the identity and both products are the plain sum `∑ₖ x[r, k] · W_e[k, j]`, so the two
  projections agree entry by entry with no appeal to finiteness; everything after the projection is the same function
  (`edgeMean`) on both sides and is never opened.
  The three frames: the word-level and the idealized kernel run their region under the library's launch theorem for
  "host lines, region, host lines" (the body's triple, the proof data and the facts about the 101 later lines are in
  Proof/HostLines*, Proof/Body*, Proof/Launch*); the reference's frame is its run with the result dropped. The ideal pass
  rewrote nothing, so `preserves` is `True`.
-/
import proofs.«161949_j44727789420554_1_alg».proof.Defs
import proofs.«161949_j44727789420554_1_alg».proof.Proof.Gen.Kernel
import proofs.«161949_j44727789420554_1_alg».proof.Proof.Gen.Kernel.Skeleton
import proofs.«161949_j44727789420554_1_alg».proof.Proof.Gen.Kernel.Launch
import proofs.«161949_j44727789420554_1_alg».proof.Proof.Gen.Kernel.Points
import proofs.«161949_j44727789420554_1_alg».proof.Proof.Gen.KernelIdeal
import proofs.«161949_j44727789420554_1_alg».proof.Proof.Gen.KernelIdeal.Skeleton
import proofs.«161949_j44727789420554_1_alg».proof.Proof.Gen.KernelIdeal.Launch
import proofs.«161949_j44727789420554_1_alg».proof.Proof.Gen.KernelIdeal.Points
import proofs.«161949_j44727789420554_1_alg».proof.Proof.Gen.ReferenceIdeal
import proofs.«161949_j44727789420554_1_alg».proof.Proof.Gen.Pre_finite_inputs
import proofs.«161949_j44727789420554_1_alg».proof.Proof.RefRunPatched
import proofs.«161949_j44727789420554_1_alg».proof.Proof.LaunchBits
import proofs.«161949_j44727789420554_1_alg».proof.Proof.KernelRun
import proofs.«161949_j44727789420554_1_alg».proof.Proof.ReferenceLayer
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Around.frame (F := Bits) m ρ

/-- So does the idealized kernel. -/
theorem frame_kernelIdeal : Cert.frame_KernelIdeal := fun m ρ _ => Cert.KernelIdeal.Around.frame (F := Ideal) m ρ

/-- The reference is host lines only: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end at the layer of those arguments. -/
theorem algebraic : Cert.algebraic_KernelIdeal_ReferenceIdeal := by
  intro m ρ m' ρ' _ hagree
  refine ⟨_, Cert.KernelIdeal.Around.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Layer.res_eq_layer, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
